-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S128x128 : Shape := ⟨2, ![128, 128]⟩
abbrev S128x64 : Shape := ⟨2, ![128, 64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_

variable [Facts]

def fn_part1 {F : FTy → Type} [FloatOps F] (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  main_v18

def fn {F : FTy → Type} [FloatOps F] (main_arg0 : FVec F S50000x128 .f32) (main_arg1 : IVec S2x1600000 32) (main_arg2 : FVec F S128x128 .f32) (main_arg3 : FVec F S128x128 .f32) (main_arg4 : FVec F S128x64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_v13 main_v16
-- ==== Kernel.lean ====
abbrev S50000x128 : Shape := ⟨2, ![50000, 128]⟩
abbrev S2x1600000 : Shape := ⟨2, ![2, 1600000]⟩
abbrev S128x128 : Shape := ⟨2, ![128, 128]⟩
abbrev S128x64 : Shape := ⟨2, ![128, 64]⟩
abbrev S1x1600000 : Shape := ⟨2, ![1, 1600000]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S5000x128 : Shape := ⟨2, ![5000, 128]⟩
abbrev S5000x1 : Shape := ⟨2, ![5000, 1]⟩
abbrev S1600000x128 : Shape := ⟨2, ![1600000, 128]⟩
abbrev S50000x64 : Shape := ⟨2, ![50000, 64]⟩
abbrev S5000x64 : Shape := ⟨2, ![5000, 64]⟩
abbrev S1600000x64 : Shape := ⟨2, ![1600000, 64]⟩

abbrev nBuf : Space → Nat
  | .hbm => 78
  | .vmem => 31
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128x64, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S50000, .f32⟩
  | .hbm, ⟨13, _⟩ => ⟨S1600000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S1600000x1, .i32⟩
  | .hbm, ⟨18, _⟩ => ⟨S50000, .f32⟩
  | .hbm, ⟨19, _⟩ => ⟨S_, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x128, .f32⟩
  | .hbm, ⟨45, _⟩ => ⟨S_, .f32⟩
  | .hbm, ⟨46, _⟩ => ⟨S50000x128, .f32⟩
  | .hbm, ⟨47, _⟩ => ⟨S1600000x1, .i32⟩
  | .hbm, ⟨48, _⟩ => ⟨S50000x128, .f32⟩
  | .hbm, ⟨49, _⟩ => ⟨S50000x128, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x128, .f32⟩
  | .hbm, ⟨59, _⟩ => ⟨S_, .f32⟩
  | .hbm, ⟨60, _⟩ => ⟨S50000x128, .f32⟩
  | .hbm, ⟨61, _⟩ => ⟨S1600000x1, .i32⟩
  | .hbm, ⟨62, _⟩ => ⟨S50000x128, .f32⟩
  | .hbm, ⟨63, _⟩ => ⟨S50000x64, .f32⟩
  | .hbm, ⟨64, _⟩ => ⟨S_, .i32⟩
  | .hbm, ⟨65, _⟩ => ⟨S1600000, .i32⟩
  | .hbm, ⟨66, _⟩ => ⟨S1600000, .i1⟩
  | .hbm, ⟨67, _⟩ => ⟨S_, .i32⟩
  | .hbm, ⟨68, _⟩ => ⟨S1600000, .i32⟩
  | .hbm, ⟨69, _⟩ => ⟨S1600000, .i32⟩
  | .hbm, ⟨70, _⟩ => ⟨S1600000, .i32⟩
  | .hbm, ⟨71, _⟩ => ⟨S1600000x1, .i32⟩
  | .hbm, ⟨72, _⟩ => ⟨S1600000x64, .f32⟩
  | .hbm, ⟨73, _⟩ => ⟨S_, .f32⟩
  | .hbm, ⟨74, _⟩ => ⟨S50000x64, .f32⟩
  | .hbm, ⟨75, _⟩ => ⟨S1600000x1, .i32⟩
  | .hbm, ⟨76, _⟩ => ⟨S50000x64, .f32⟩
  | .hbm, ⟨77, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S5000x1, .f32⟩
  | .local _ .vmem, ⟨12, _⟩ => ⟨S5000x1, .f32⟩
  | .local _ .vmem, ⟨13, _⟩ => ⟨S128x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x1, .f32⟩
  | .local _ .vmem, ⟨19, _⟩ => ⟨S5000x1, .f32⟩
  | .local _ .vmem, ⟨20, _⟩ => ⟨S5000x1, .f32⟩
  | .local _ .vmem, ⟨21, _⟩ => ⟨S5000x1, .f32⟩
  | .local _ .vmem, ⟨22, _⟩ => ⟨S128x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x1, .f32⟩
  | .local _ .vmem, ⟨28, _⟩ => ⟨S5000x1, .f32⟩
  | .local _ .vmem, ⟨29, _⟩ => ⟨S5000x64, .f32⟩
  | .local _ .vmem, ⟨30, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_call1_v0 : Ref sig .tc := ⟨.hbm, 28, rfl⟩
abbrev main_call1_v1 : Ref sig .tc := ⟨.hbm, 29, rfl⟩
abbrev main_v15 : Ref sig .tc := ⟨.hbm, 30, rfl⟩
abbrev main_cst_5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c : Ref sig .tc := ⟨.hbm, 36, rfl⟩
abbrev main_v20 : Ref sig .tc := ⟨.hbm, 37, rfl⟩
abbrev main_v21 : Ref sig .tc := ⟨.hbm, 38, rfl⟩
abbrev main_c_6 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_7 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_8 : Ref sig .tc := ⟨.hbm, 50, rfl⟩
abbrev main_v31 : Ref sig .tc := ⟨.hbm, 51, rfl⟩
abbrev main_v32 : Ref sig .tc := ⟨.hbm, 52, rfl⟩
abbrev main_c_9 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_10 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_c_11 : Ref sig .tc := ⟨.hbm, 64, rfl⟩
abbrev main_v42 : Ref sig .tc := ⟨.hbm, 65, rfl⟩
abbrev main_v43 : Ref sig .tc := ⟨.hbm, 66, rfl⟩
abbrev main_c_12 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_13 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg4_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg2_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem4_0 : DmaSem sig := 23
abbrev cc2_sem4_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem2_1 : DmaSem sig := 30

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S50000x128 : S_.BroadcastsInDim S50000x128 (![] : Fin 0 → Fin S50000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  shapeCasts_S5000x64_S5000x64 : S5000x64.ShapeCasts S5000x64
  broadcasts_S5000x1_S5000x64 : S5000x1.Broadcasts S5000x64
  scatter_S50000_S1600000x1_S1600000_n_0_0_1_wf : ScatterDims.WF S50000 S1600000x1 S1600000 [] [0] [0] 1
  dot_S5000x128_S128x128_S5000x128_1_0_0_1_n_n_wf : DotDims.WF S5000x128 S128x128 S5000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S5000x128_S128x64_S5000x64_1_0_0_1_n_n_wf : DotDims.WF S5000x128 S128x64 S5000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S50000x64.size a
  hwx2_4 : ∀ i : grid2.Coords, EltTy.bits .f32 = 32 ∨ (Rect.block (s := S50000x64) S5000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v29) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v40) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v14) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg4) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v41) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v51) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v18) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v52) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S128x128 : Shape := ⟨2, ![128, 128]⟩
abbrev S128x64 : Shape := ⟨2, ![128, 64]⟩
abbrev S1x1600000 : Shape := ⟨2, ![1, 1600000]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S1600000x128 : Shape := ⟨2, ![1600000, 128]⟩
abbrev S50000x64 : Shape := ⟨2, ![50000, 64]⟩
abbrev S1600000x64 : Shape := ⟨2, ![1600000, 64]⟩

abbrev nBuf : Space → Nat
  | .hbm => 102
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128x64, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S50000, .f32⟩
  | .hbm, ⟨13, _⟩ => ⟨S1600000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S1600000x1, .i32⟩
  | .hbm, ⟨18, _⟩ => ⟨S50000, .f32⟩
  | .hbm, ⟨19, _⟩ => ⟨S_, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S50000x128, .f32⟩
  | .hbm, ⟨35, _⟩ => ⟨S50000x128, .f32⟩
  | .hbm, ⟨36, _⟩ => ⟨S50000x128, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x128, .f32⟩
  | .hbm, ⟨46, _⟩ => ⟨S_, .f32⟩
  | .hbm, ⟨47, _⟩ => ⟨S50000x128, .f32⟩
  | .hbm, ⟨48, _⟩ => ⟨S1600000x1, .i32⟩
  | .hbm, ⟨49, _⟩ => ⟨S50000x128, .f32⟩
  | .hbm, ⟨50, _⟩ => ⟨S50000x1, .f32⟩
  | .hbm, ⟨51, _⟩ => ⟨S50000x128, .f32⟩
  | .hbm, ⟨52, _⟩ => ⟨S50000x128, .f32⟩
  | .hbm, ⟨53, _⟩ => ⟨S_, .f32⟩
  | .hbm, ⟨54, _⟩ => ⟨S50000x128, .f32⟩
  | .hbm, ⟨55, _⟩ => ⟨S50000x128, .f32⟩
  | .hbm, ⟨56, _⟩ => ⟨S50000x1, .f32⟩
  | .hbm, ⟨57, _⟩ => ⟨S50000x128, .f32⟩
  | .hbm, ⟨58, _⟩ => ⟨S50000x128, .f32⟩
  | .hbm, ⟨59, _⟩ => ⟨S50000x128, .f32⟩
  | .hbm, ⟨60, _⟩ => ⟨S_, .i32⟩
  | .hbm, ⟨61, _⟩ => ⟨S1600000, .i32⟩
  | .hbm, ⟨62, _⟩ => ⟨S1600000, .i1⟩
  | .hbm, ⟨63, _⟩ => ⟨S_, .i32⟩
  | .hbm, ⟨64, _⟩ => ⟨S1600000, .i32⟩
  | .hbm, ⟨65, _⟩ => ⟨S1600000, .i32⟩
  | .hbm, ⟨66, _⟩ => ⟨S1600000, .i32⟩
  | .hbm, ⟨67, _⟩ => ⟨S1600000x1, .i32⟩
  | .hbm, ⟨68, _⟩ => ⟨S1600000x128, .f32⟩
  | .hbm, ⟨69, _⟩ => ⟨S_, .f32⟩
  | .hbm, ⟨70, _⟩ => ⟨S50000x128, .f32⟩
  | .hbm, ⟨71, _⟩ => ⟨S1600000x1, .i32⟩
  | .hbm, ⟨72, _⟩ => ⟨S50000x128, .f32⟩
  | .hbm, ⟨73, _⟩ => ⟨S50000x1, .f32⟩
  | .hbm, ⟨74, _⟩ => ⟨S50000x128, .f32⟩
  | .hbm, ⟨75, _⟩ => ⟨S50000x128, .f32⟩
  | .hbm, ⟨76, _⟩ => ⟨S_, .f32⟩
  | .hbm, ⟨77, _⟩ => ⟨S50000x128, .f32⟩
  | .hbm, ⟨78, _⟩ => ⟨S50000x128, .f32⟩
  | .hbm, ⟨79, _⟩ => ⟨S50000x1, .f32⟩
  | .hbm, ⟨80, _⟩ => ⟨S50000x128, .f32⟩
  | .hbm, ⟨81, _⟩ => ⟨S50000x128, .f32⟩
  | .hbm, ⟨82, _⟩ => ⟨S50000x64, .f32⟩
  | .hbm, ⟨83, _⟩ => ⟨S_, .i32⟩
  | .hbm, ⟨84, _⟩ => ⟨S1600000, .i32⟩
  | .hbm, ⟨85, _⟩ => ⟨S1600000, .i1⟩
  | .hbm, ⟨86, _⟩ => ⟨S_, .i32⟩
  | .hbm, ⟨87, _⟩ => ⟨S1600000, .i32⟩
  | .hbm, ⟨88, _⟩ => ⟨S1600000, .i32⟩
  | .hbm, ⟨89, _⟩ => ⟨S1600000, .i32⟩
  | .hbm, ⟨90, _⟩ => ⟨S1600000x1, .i32⟩
  | .hbm, ⟨91, _⟩ => ⟨S1600000x64, .f32⟩
  | .hbm, ⟨92, _⟩ => ⟨S_, .f32⟩
  | .hbm, ⟨93, _⟩ => ⟨S50000x64, .f32⟩
  | .hbm, ⟨94, _⟩ => ⟨S1600000x1, .i32⟩
  | .hbm, ⟨95, _⟩ => ⟨S50000x64, .f32⟩
  | .hbm, ⟨96, _⟩ => ⟨S50000x1, .f32⟩
  | .hbm, ⟨97, _⟩ => ⟨S50000x64, .f32⟩
  | .hbm, ⟨98, _⟩ => ⟨S50000x64, .f32⟩
  | .hbm, ⟨99, _⟩ => ⟨S_, .f32⟩
  | .hbm, ⟨100, _⟩ => ⟨S50000x64, .f32⟩
  | .hbm, ⟨101, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_cst_4 : Ref sig .tc := ⟨.hbm, 26, rfl⟩
abbrev main_call1_v0 : Ref sig .tc := ⟨.hbm, 27, rfl⟩
abbrev main_call1_v1 : Ref sig .tc := ⟨.hbm, 28, rfl⟩
abbrev main_v14 : Ref sig .tc := ⟨.hbm, 29, rfl⟩
abbrev main_cst_5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c : Ref sig .tc := ⟨.hbm, 37, rfl⟩
abbrev main_v21 : Ref sig .tc := ⟨.hbm, 38, rfl⟩
abbrev main_v22 : Ref sig .tc := ⟨.hbm, 39, rfl⟩
abbrev main_c_6 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_7 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_call2_cst : Ref sig .tc := ⟨.hbm, 53, rfl⟩
abbrev main_call2_v0 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_8 : Ref sig .tc := ⟨.hbm, 60, rfl⟩
abbrev main_v39 : Ref sig .tc := ⟨.hbm, 61, rfl⟩
abbrev main_v40 : Ref sig .tc := ⟨.hbm, 62, rfl⟩
abbrev main_c_9 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_10 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_call3_cst : Ref sig .tc := ⟨.hbm, 76, rfl⟩
abbrev main_call3_v0 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_c_11 : Ref sig .tc := ⟨.hbm, 83, rfl⟩
abbrev main_v57 : Ref sig .tc := ⟨.hbm, 84, rfl⟩
abbrev main_v58 : Ref sig .tc := ⟨.hbm, 85, rfl⟩
abbrev main_c_12 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_13 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_call4_cst : Ref sig .tc := ⟨.hbm, 99, rfl⟩
abbrev main_call4_v0 : Ref sig .tc := ⟨.hbm, 100, rfl⟩
abbrev main_v70 : Ref sig .tc := ⟨.hbm, 101, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  scatter_S50000_S1600000x1_S1600000_n_0_0_1_wf : ScatterDims.WF S50000 S1600000x1 S1600000 [] [0] [0] 1
  dot_S50000x128_S128x128_S50000x128_1_0_0_1_n_n_wf : DotDims.WF S50000x128 S128x128 S50000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x64_S50000x64_1_0_0_1_n_n_wf : DotDims.WF S50000x128 S128x64 S50000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf

class Facts : Prop extends Facts₀ where

variable [Facts]
-- ==== Proof.KernelRun.lean ====
/-
  The idealized kernel program's run with its result named.

  The program is twelve segments: five stretches of host operations, then four kernel launches with a stretch of host
  operations between each two. Its frame run ends with every buffer the host can see at the contents of the last
  segment boundary — the fold of the stretches' operations and the launches' write-backs over the launch memory. The
  frame claim reads only the five argument buffers off that final state; here the result buffer is read off it as
  well, so that the run's post names the result: the last boundary's contents at the fourth launch's output array.
-/
import proofs.«129389_j42116449305312_1_alg».proof.Proof.Gen.KernelIdeal.Frame

set_option maxRecDepth 16384

noncomputable section

namespace Cert.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the argument arrays as launched. -/
theorem kernel_run : θ_run defs (onTc (τ := τ) (main (F := F))) ⟨m, fun _ => 0, ρ⟩ (fun r => ∀ c : Dev nD,
      r.2.mem ((c.tc : Thread nD τ).loc main_v52) = W12 m ρ c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v52 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c)⟩)

end Cert.Gcn

end
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.LibColumn.lean ====
/-
  Layout facts about columns and rows, independent of any program.

  A column is an array of shape [a, 1]. Broadcasting it to [a, b] repeats each row's single entry across the b
  positions of that row, so the entry at (p, c) is the column's entry at row p. Casting a vector of shape [a] to the
  column shape [a, 1] keeps the row-major order, so the entry at (i, 0) is the vector's entry at i.

  The host spells the same repetitions with an explicit map from the operand's axes to the result's axes: a vector
  [b] placed on axis 1 of [1, b] is read at its own position; a vector [a] placed on axis 0 of [a, 1] likewise; a row
  [1, b] or a column [a, 1] repeated to [a, b] is read at the one row, or the one column, it has; a scalar repeated to
  any shape is read at its one entry.
-/
import Idealize.ShloMosaic.Lib.ValueIdx
import Idealize.ShloMosaic.Lib.Pipeline.Value

noncomputable section

namespace Cert.Lib

open Idealize.ShloMosaic Idealize.ShloMosaic.ValueIdx

variable {α : Type}

/-- A column [a, 1] broadcast to [a, b] reads, at (p, c), the column's entry at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] cast to the column shape [a, 1] reads, at (i, u), the vector's entry at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A vector [b] placed on axis 1 of [1, b] reads, at (u, q), the vector's entry at q. -/
theorem broadcastInDim_b_1b_apply {b : ℕ} (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply ![1] h x (ix2 u q) (ix1 q) fun ax => ?_
  match ax with
  | ⟨0, _⟩ =>
    show q.val = if b = 1 then 0 else q.val
    split
    · have := q.isLt; omega
    · rfl

/-- A vector [a] placed on axis 0 of [a, 1] reads, at (p, u), the vector's entry at p. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- A row [1, b] repeated to [a, b], axes kept in place, reads at (p, q) the row's entry at q. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h x (ix2 p q) = x (ix2 (0 : Fin 1) q) := by
  refine broadcastInDim_apply ![0, 1] h x (ix2 p q) (ix2 (0 : Fin 1) q) fun ax => ?_
  match ax with
  | ⟨0, _⟩ => rfl
  | ⟨1, _⟩ =>
    show q.val = if b = 1 then 0 else q.val
    split
    · have := q.isLt; omega
    · rfl

/-- A column [a, 1] repeated to [a, b], axes kept in place, reads at (p, q) the column's entry at p. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) := by
  refine broadcastInDim_apply ![0, 1] h x (ix2 p q) (ix2 p (0 : Fin 1)) fun ax => ?_
  match ax with
  | ⟨0, _⟩ =>
    show p.val = if a = 1 then 0 else p.val
    split
    · have := p.isLt; omega
    · rfl
  | ⟨1, _⟩ => rfl

/-- A scalar repeated to any shape reads, everywhere, its one entry. -/
theorem broadcastInDim_scalar_apply {s : Shape} (x : (⟨0, ![]⟩ : Shape).Idx → α)
    (h : (⟨0, ![]⟩ : Shape).BroadcastsInDim s ![]) (i : s.Idx) :
    broadcastInDim s ![] h x i = x ix0 :=
  broadcastInDim_apply ![] h x i ix0 fun ax => ax.elim0

end Cert.Lib

end
-- ==== Proof.LibGraphConv.lean ====
/-
  The dense stages of a graph convolution with symmetric degree normalisation, over the extended reals, and the two
  spellings in which programs compute them. Independent of any program; general in the sizes.

  A layer takes node features x [n, k], scales row p by the p-th entry of a column s [n, 1], and multiplies by a
  weight matrix w [k, m]:

      scaleMul x s w (p, q) = sum over j of (x (p, j) * s (p, 0)) * w (j, q).

  Between two layers the aggregated features are scaled by a column and clipped below at zero:

      reluScale a s (p, q) = max (a (p, q) * s (p, 0)) 0,

  and the next layer's dense stage is reluScaleMul a sIn sOut w = scaleMul (reluScale a sIn) sOut w.

  A kernel computes a tile of R rows: the column tile [R, 1] is broadcast across the tile, the product is taken into a
  zero accumulator, the operands rounded to a narrower float format on the way in (the identity on extended reals).
  The host computes the whole array: the column [n, 1] is repeated to [n, k] with the axes kept in place, the clip is
  a maximum with a repeated scalar zero, the product is a general dot contracting the shared axis. Read at an entry,
  each spelling is the same expression; in particular the sums run over the same index in the same order, so no law of
  arithmetic is needed to join them.
-/
import Idealize.ShloMosaic.Lib.ValueIdx
import Idealize.ShloMosaic.Lib.Pipeline.Value
import Idealize.ShloMosaic.PureOps.Ideal
import Idealize.ShloMosaic.PureOps.Ideal.Laws
import proofs.«129389_j42116449305312_1_alg».proof.Proof.LibPlainDot
import proofs.«129389_j42116449305312_1_alg».proof.Proof.LibColumn

noncomputable section

namespace Cert.Lib.GraphConv

open Idealize.ShloMosaic Idealize.ShloMosaic.ValueIdx

/-- A matrix of extended reals with a rows and b columns. -/
abbrev Mat (a b : ℕ) : Type := (⟨2, ![a, b]⟩ : Shape).Idx → EReal

/-- The extended real that the all-zero f32 word denotes (it is 0; the word is never evaluated here). -/
abbrev zeroWord : EReal := Ideal.ofBits .f32 0x00000000#32

/-- Row p of x times the p-th entry of the column s. -/
def rowScale {a b : ℕ} (x : Mat a b) (s : Mat a 1) : Mat a b :=
  fun i => x i * s (ix2 (n0 := a) (i 0) (0 : Fin 1))

theorem rowScale_apply {a b : ℕ} (x : Mat a b) (s : Mat a 1) (p : Fin a) (q : Fin b) :
    rowScale x s (ix2 p q) = x (ix2 p q) * s (ix2 p (0 : Fin 1)) := rfl

/-- Clipped below at zero. -/
def relu {a b : ℕ} (x : Mat a b) : Mat a b := fun i => max (x i) zeroWord

/-- Row-scaled by s, then clipped below at zero. -/
def reluScale {a b : ℕ} (x : Mat a b) (s : Mat a 1) : Mat a b := relu (rowScale x s)

theorem reluScale_apply {a b : ℕ} (x : Mat a b) (s : Mat a 1) (p : Fin a) (q : Fin b) :
    reluScale x s (ix2 p q) = max (x (ix2 p q) * s (ix2 p (0 : Fin 1))) zeroWord := rfl

/-- The product of a matrix [n, k] with a matrix [k, m] as the sum over the shared index. -/
def matMul {n k m : ℕ} (x : Mat n k) (w : Mat k m) : Mat n m :=
  fun i => ∑ j : Fin k, x (ix2 (n0 := n) (i 0) j) * w (ix2 (n1 := m) j (i 1))

theorem matMul_apply {n k m : ℕ} (x : Mat n k) (w : Mat k m) (p : Fin n) (q : Fin m) :
    matMul x w (ix2 p q) = ∑ j : Fin k, x (ix2 p j) * w (ix2 j q) := rfl

/-- The first layer's dense stage: rows scaled by s, then the product with w. -/
def scaleMul {n k m : ℕ} (x : Mat n k) (s : Mat n 1) (w : Mat k m) : Mat n m := matMul (rowScale x s) w

theorem scaleMul_apply {n k m : ℕ} (x : Mat n k) (s : Mat n 1) (w : Mat k m) (p : Fin n) (q : Fin m) :
    scaleMul x s w (ix2 p q) = ∑ j : Fin k, (x (ix2 p j) * s (ix2 p (0 : Fin 1))) * w (ix2 j q) := rfl

/-- A later layer's dense stage: scaled by the in-degree column and clipped at zero, then the first layer's stage
    with the out-degree column. -/
def reluScaleMul {n k m : ℕ} (x : Mat n k) (sIn sOut : Mat n 1) (w : Mat k m) : Mat n m :=
  scaleMul (reluScale x sIn) sOut w

theorem reluScaleMul_apply {n k m : ℕ} (x : Mat n k) (sIn sOut : Mat n 1) (w : Mat k m) (p : Fin n) (q : Fin m) :
    reluScaleMul x sIn sOut w (ix2 p q)
      = ∑ j : Fin k, (max (x (ix2 p j) * sIn (ix2 p (0 : Fin 1))) zeroWord * sOut (ix2 p (0 : Fin 1))) * w (ix2 j q) := rfl

/-! ## A kernel's tile -/

section Tile

variable {R K M : ℕ}

/-- A tile times its column tile, the column cast to its own shape and broadcast across the tile. -/
theorem tile_rowScale (x : FVec Ideal ⟨2, ![R, K]⟩ .f32) (s : FVec Ideal ⟨2, ![R, 1]⟩ .f32)
    (hc : (⟨2, ![R, 1]⟩ : Shape).ShapeCasts ⟨2, ![R, 1]⟩) (hb : (⟨2, ![R, 1]⟩ : Shape).Broadcasts ⟨2, ![R, K]⟩) :
    mulf x (broadcastTo ⟨2, ![R, K]⟩ (shapeCast ⟨2, ![R, 1]⟩ s hc) hb) = rowScale x s := by
  funext i
  obtain ⟨r, j, rfl⟩ : ∃ (r : Fin R) (j : Fin K), i = ix2 r j := ⟨i 0, i 1, eq_ix2 i⟩
  rw [mulf_apply, shapeCast_self, broadcastTo_a1_ab_apply]
  rfl

/-- A tile clipped below at the zero word splat across it. -/
theorem tile_relu (x : FVec Ideal ⟨2, ![R, K]⟩ .f32) :
    maximumf x (broadcast ⟨2, ![R, K]⟩ (FloatOps.ofBits (F := Ideal) .f32 0x00000000#32)) = relu x := rfl

/-- A tile's product with the weights into a zero accumulator, both operands rounded to bf16 on the way in. -/
theorem tile_matMul (wf : DotDims.WF ⟨2, ![R, K]⟩ ⟨2, ![K, M]⟩ ⟨2, ![R, M]⟩ [1] [0] [0] [1] [] [])
    (prec : Option ContractPrecision) (h1 h2 : FTy.bits .bf16 < FTy.bits .f32)
    (x : FVec Ideal ⟨2, ![R, K]⟩ .f32) (w : FVec Ideal ⟨2, ![K, M]⟩ .f32) :
    FloatOps.matmul (plainDot R K M wf) prec (truncf .bf16 x h1) (truncf .bf16 w h2)
        (constant (F := Ideal) ⟨2, ![R, M]⟩ .f32 0x00000000#32)
      = matMul x w := by
  funext i
  obtain ⟨r, q, rfl⟩ : ∃ (r : Fin R) (q : Fin M), i = ix2 r q := ⟨i 0, i 1, eq_ix2 i⟩
  rw [matmul_zero_apply]
  rfl

end Tile

/-! ## The host's whole arrays -/

section Host

variable {n k m : ℕ}

/-- The features times the column repeated across with the axes kept in place. -/
theorem host_rowScale (x : FVec Ideal ⟨2, ![n, k]⟩ .f32) (s : FVec Ideal ⟨2, ![n, 1]⟩ .f32)
    (h : (⟨2, ![n, 1]⟩ : Shape).BroadcastsInDim ⟨2, ![n, k]⟩ ![0, 1]) :
    mulf x (broadcastInDim ⟨2, ![n, k]⟩ ![0, 1] h s) = rowScale x s := by
  funext i
  obtain ⟨p, j, rfl⟩ : ∃ (p : Fin n) (j : Fin k), i = ix2 p j := ⟨i 0, i 1, eq_ix2 i⟩
  rw [mulf_apply, broadcastInDim_a1_ab_apply]
  rfl

/-- The maximum with a scalar zero repeated to the whole shape. -/
theorem host_relu (x : FVec Ideal ⟨2, ![n, k]⟩ .f32)
    (h : (⟨0, ![]⟩ : Shape).BroadcastsInDim ⟨2, ![n, k]⟩ ![]) :
    maximumf x (broadcastInDim ⟨2, ![n, k]⟩ ![] h (constant (F := Ideal) ⟨0, ![]⟩ .f32 0x00000000#32)) = relu x := by
  funext i
  rw [maximumf_apply, broadcastInDim_scalar_apply]
  rfl

/-- The host's general dot contracting the shared axis. -/
theorem host_matMul (wf : DotDims.WF ⟨2, ![n, k]⟩ ⟨2, ![k, m]⟩ ⟨2, ![n, m]⟩ [1] [0] [0] [1] [] [])
    (prec : Option ContractPrecision) (x : FVec Ideal ⟨2, ![n, k]⟩ .f32) (w : FVec Ideal ⟨2, ![k, m]⟩ .f32) :
    Host.dotGeneral (plainDot n k m wf) prec x w = matMul x w := by
  funext i
  obtain ⟨p, q, rfl⟩ : ∃ (p : Fin n) (q : Fin m), i = ix2 p q := ⟨i 0, i 1, eq_ix2 i⟩
  exact dotGeneral_plain_apply wf prec _ x w p q

end Host

/-! ## A row tile of a stage is the stage at the tile's rows -/

section Rows

variable {n k m R : ℕ}

/-- If a tile x holds the rows row r of X, and its column tile s those rows of S, the first layer's stage of the tile
    is the stage of the whole arrays at those rows. -/
theorem scaleMul_rows (X : Mat n k) (S : Mat n 1) (W : Mat k m) (x : Mat R k) (s : Mat R 1) (row : Fin R → Fin n)
    (hx : ∀ r j, x (ix2 r j) = X (ix2 (row r) j))
    (hs : ∀ r, s (ix2 r (0 : Fin 1)) = S (ix2 (row r) (0 : Fin 1))) (r : Fin R) (q : Fin m) :
    scaleMul x s W (ix2 r q) = scaleMul X S W (ix2 (row r) q) := by
  rw [scaleMul_apply, scaleMul_apply]
  exact Finset.sum_congr rfl fun j _ => by rw [hx, hs]

/-- The same for a later layer's stage, with its two column tiles. -/
theorem reluScaleMul_rows (X : Mat n k) (SI SO : Mat n 1) (W : Mat k m) (x : Mat R k) (si so : Mat R 1)
    (row : Fin R → Fin n) (hx : ∀ r j, x (ix2 r j) = X (ix2 (row r) j))
    (hsi : ∀ r, si (ix2 r (0 : Fin 1)) = SI (ix2 (row r) (0 : Fin 1)))
    (hso : ∀ r, so (ix2 r (0 : Fin 1)) = SO (ix2 (row r) (0 : Fin 1))) (r : Fin R) (q : Fin m) :
    reluScaleMul x si so W (ix2 r q) = reluScaleMul X SI SO W (ix2 (row r) q) := by
  rw [reluScaleMul_apply, reluScaleMul_apply]
  exact Finset.sum_congr rfl fun j _ => by rw [hx, hsi, hso]

/-- The same for the scaled and clipped aggregate. -/
theorem reluScale_rows (X : Mat n k) (S : Mat n 1) (x : Mat R k) (s : Mat R 1) (row : Fin R → Fin n)
    (hx : ∀ r j, x (ix2 r j) = X (ix2 (row r) j))
    (hs : ∀ r, s (ix2 r (0 : Fin 1)) = S (ix2 (row r) (0 : Fin 1))) (r : Fin R) (q : Fin k) :
    reluScale x s (ix2 r q) = reluScale X S (ix2 (row r) q) := by
  rw [reluScale_apply, reluScale_apply, hx, hs]

end Rows

end Cert.Lib.GraphConv

end
-- ==== Proof.HostChain.lean ====
/-
  The host side of the graph convolution, shared by both programs, and the reference read as the layers' composition.

  Both programs begin by splitting the edge list [2, E] into its row of source nodes and its row of destination nodes,
  and compute for each row a column [n, 1]: the number of edges naming each node (a scatter-add of ones), clipped below
  at one, to the power minus one half. Between two dense stages both programs aggregate along the edges: the rows of
  the features are gathered at the source nodes (a negative index wrapped once by n) and scatter-added at the
  destination nodes into zeros. None of these operations is opened here: they are named functions of their operands,
  the same ones in both programs, so equal operands give equal results.

  The reference is then, stage by stage, the composition

      out = reluScale (agg (dense3 (agg (dense2 (agg (dense1 h))))))

  of the layer functions with the aggregation in between: each of its multiplications by a repeated column, maxima
  with a repeated zero and general dots is read as the corresponding layer function of whole arrays.
-/
import proofs.«129389_j42116449305312_1_alg».proof.Proof.Gen.ReferenceIdeal.Read
import proofs.«129389_j42116449305312_1_alg».proof.Proof.LibGraphConv

noncomputable section

namespace Cert.Gcn

open Idealize.ShloMosaic Idealize.ShloMosaic.ValueIdx
open Cert.ReferenceIdeal Cert.ReferenceIdeal.Gen Cert.ReferenceIdeal.Read Cert.Lib Cert.Lib.GraphConv

section Shared

variable {F : FTy → Type} [FloatOps F]

/-- The degree column of a list of node indices: how many entries name each node, clipped below at one, to the power
    minus one half, as a column [n, 1]. -/
def degCol (idx : (⟨S1600000, .i32⟩ : BufTy).Contents (Elt F)) : (⟨S50000x1, .f32⟩ : BufTy).Contents (Elt F) :=
  broadcastInDim S50000x1 ![0] bcast_S50000_S50000x1_0
    (Host.powf
      (maximumf (broadcastInDim S50000 ![] bcast_S_S50000 (id (constant S_ .f32 0x3F800000#32)))
        (Host.scatterAdd scatter_S50000_S1600000x1_S1600000_n_0_0_1
          (broadcastInDim S50000 ![] bcast_S_S50000 (constant S_ .f32 0x00000000#32))
          (broadcastInDim S1600000x1 ![0] bcast_S1600000_S1600000x1_0 idx)
          (broadcastInDim S1600000 ![] bcast_S_S1600000 (constant S_ .f32 0x3F800000#32))))
      (broadcastInDim S50000 ![] bcast_S_S50000 (constant S_ .f32 0xBF000000#32)))

/-- The gather's index column: a negative node index wrapped once by the number of nodes. -/
def wrapped (src : (⟨S1600000, .i32⟩ : BufTy).Contents (Elt F)) : (⟨S1600000x1, .i32⟩ : BufTy).Contents (Elt F) :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 50000#32))) src)

/-- Aggregation along the edges of features [n, 128]: rows gathered at the sources, scatter-added at the
    destinations into zeros. -/
def aggregate128 (x : (⟨S50000x128, .f32⟩ : BufTy).Contents (Elt F)) (src dst : (⟨S1600000, .i32⟩ : BufTy).Contents (Elt F)) :
    (⟨S50000x128, .f32⟩ : BufTy).Contents (Elt F) :=
  Host.scatterAdd scatter_S50000x128_S1600000x1_S1600000x128_1_0_0_1
    (broadcastInDim S50000x128 ![] bcast_S_S50000x128 (constant S_ .f32 0x00000000#32))
    (broadcastInDim S1600000x1 ![0] bcast_S1600000_S1600000x1_0 dst)
    (Host.gather gather_S50000x128_S1600000x1_S1600000x128_1_0_n_n_0_1_1128 x (wrapped src))

/-- The same for features [n, 64]. -/
def aggregate64 (x : (⟨S50000x64, .f32⟩ : BufTy).Contents (Elt F)) (src dst : (⟨S1600000, .i32⟩ : BufTy).Contents (Elt F)) :
    (⟨S50000x64, .f32⟩ : BufTy).Contents (Elt F) :=
  Host.scatterAdd scatter_S50000x64_S1600000x1_S1600000x64_1_0_0_1
    (broadcastInDim S50000x64 ![] bcast_S_S50000x64 (constant S_ .f32 0x00000000#32))
    (broadcastInDim S1600000x1 ![0] bcast_S1600000_S1600000x1_0 dst)
    (Host.gather gather_S50000x64_S1600000x1_S1600000x64_1_0_n_n_0_1_164 x (wrapped src))

/-! ### The reference's host stages are these functions (each of its three layers recomputes the columns) -/

theorem ref_outCol1 (e : (⟨S2x1600000, .i32⟩ : BufTy).Contents (Elt F)) : val_main_v17 (F := F) e = degCol (val_main_v1 e) := rfl
theorem ref_outCol2 (e : (⟨S2x1600000, .i32⟩ : BufTy).Contents (Elt F)) : val_main_v35 (F := F) e = degCol (val_main_v1 e) := rfl
theorem ref_outCol3 (e : (⟨S2x1600000, .i32⟩ : BufTy).Contents (Elt F)) : val_main_v53 (F := F) e = degCol (val_main_v1 e) := rfl
theorem ref_inCol1 (e : (⟨S2x1600000, .i32⟩ : BufTy).Contents (Elt F)) : val_main_v31 (F := F) e = degCol (val_main_v3 e) := rfl
theorem ref_inCol2 (e : (⟨S2x1600000, .i32⟩ : BufTy).Contents (Elt F)) : val_main_v49 (F := F) e = degCol (val_main_v3 e) := rfl
theorem ref_inCol3 (e : (⟨S2x1600000, .i32⟩ : BufTy).Contents (Elt F)) : val_main_v67 (F := F) e = degCol (val_main_v3 e) := rfl

theorem ref_agg1 (x0 : (⟨S50000x128, .f32⟩ : BufTy).Contents (Elt F)) (e : (⟨S2x1600000, .i32⟩ : BufTy).Contents (Elt F))
    (w1 : (⟨S128x128, .f32⟩ : BufTy).Contents (Elt F)) :
    val_main_v30 (F := F) x0 e w1 = aggregate128 (val_main_v20 x0 e w1) (val_main_v1 e) (val_main_v3 e) := rfl

theorem ref_agg2 (x0 : (⟨S50000x128, .f32⟩ : BufTy).Contents (Elt F)) (e : (⟨S2x1600000, .i32⟩ : BufTy).Contents (Elt F))
    (w1 w2 : (⟨S128x128, .f32⟩ : BufTy).Contents (Elt F)) :
    val_main_v48 (F := F) x0 e w1 w2 = aggregate128 (val_main_v38 x0 e w1 w2) (val_main_v1 e) (val_main_v3 e) := rfl

theorem ref_agg3 (x0 : (⟨S50000x128, .f32⟩ : BufTy).Contents (Elt F)) (e : (⟨S2x1600000, .i32⟩ : BufTy).Contents (Elt F))
    (w1 w2 : (⟨S128x128, .f32⟩ : BufTy).Contents (Elt F)) (w3 : (⟨S128x64, .f32⟩ : BufTy).Contents (Elt F)) :
    val_main_v66 (F := F) x0 e w1 w2 w3 = aggregate64 (val_main_v56 x0 e w1 w2 w3) (val_main_v1 e) (val_main_v3 e) := rfl

end Shared

/-! ## The reference's dense stages over the extended reals -/

theorem ref_dense1 (x0 : (⟨S50000x128, .f32⟩ : BufTy).Contents (Elt Ideal)) (e : (⟨S2x1600000, .i32⟩ : BufTy).Contents (Elt Ideal))
    (w1 : (⟨S128x128, .f32⟩ : BufTy).Contents (Elt Ideal)) :
    val_main_v20 (F := Ideal) x0 e w1 = scaleMul x0 (val_main_v17 e) w1 := by
  unfold val_main_v20 val_main_v19 val_main_v18
  rw [host_rowScale]
  exact host_matMul dot_S50000x128_S128x128_S50000x128_1_0_0_1_n_n.wf none _ w1

theorem ref_dense2 (x0 : (⟨S50000x128, .f32⟩ : BufTy).Contents (Elt Ideal)) (e : (⟨S2x1600000, .i32⟩ : BufTy).Contents (Elt Ideal))
    (w1 w2 : (⟨S128x128, .f32⟩ : BufTy).Contents (Elt Ideal)) :
    val_main_v38 (F := Ideal) x0 e w1 w2
      = reluScaleMul (val_main_v30 x0 e w1) (val_main_v31 e) (val_main_v35 e) w2 := by
  unfold val_main_v38 val_main_v37 val_main_v36 val_main_v34 val_main_v33 val_main_v32 val_main_call2_v0 val_main_call2_cst
  rw [host_rowScale, host_relu, host_rowScale]
  exact host_matMul dot_S50000x128_S128x128_S50000x128_1_0_0_1_n_n.wf none _ w2

theorem ref_dense3 (x0 : (⟨S50000x128, .f32⟩ : BufTy).Contents (Elt Ideal)) (e : (⟨S2x1600000, .i32⟩ : BufTy).Contents (Elt Ideal))
    (w1 w2 : (⟨S128x128, .f32⟩ : BufTy).Contents (Elt Ideal)) (w3 : (⟨S128x64, .f32⟩ : BufTy).Contents (Elt Ideal)) :
    val_main_v56 (F := Ideal) x0 e w1 w2 w3
      = reluScaleMul (val_main_v48 x0 e w1 w2) (val_main_v49 e) (val_main_v53 e) w3 := by
  unfold val_main_v56 val_main_v55 val_main_v54 val_main_v52 val_main_v51 val_main_v50 val_main_call3_v0 val_main_call3_cst
  rw [host_rowScale, host_relu, host_rowScale]
  exact host_matMul dot_S50000x128_S128x64_S50000x64_1_0_0_1_n_n.wf none _ w3

theorem ref_last (x0 : (⟨S50000x128, .f32⟩ : BufTy).Contents (Elt Ideal)) (e : (⟨S2x1600000, .i32⟩ : BufTy).Contents (Elt Ideal))
    (w1 w2 : (⟨S128x128, .f32⟩ : BufTy).Contents (Elt Ideal)) (w3 : (⟨S128x64, .f32⟩ : BufTy).Contents (Elt Ideal)) :
    val_main_v70 (F := Ideal) x0 e w1 w2 w3 = reluScale (val_main_v66 x0 e w1 w2 w3) (val_main_v67 e) := by
  unfold val_main_v70 val_main_v69 val_main_v68 val_main_call4_v0 val_main_call4_cst
  rw [host_rowScale, host_relu]
  rfl

/-! ## The three layers as one function of the arguments -/

/-- The three-layer graph convolution of the arguments: features h, edge list e, weights w1, w2, w3. -/
def gcn (h : (⟨S50000x128, .f32⟩ : BufTy).Contents (Elt Ideal)) (e : (⟨S2x1600000, .i32⟩ : BufTy).Contents (Elt Ideal))
    (w1 w2 : (⟨S128x128, .f32⟩ : BufTy).Contents (Elt Ideal)) (w3 : (⟨S128x64, .f32⟩ : BufTy).Contents (Elt Ideal)) :
    (⟨S50000x64, .f32⟩ : BufTy).Contents (Elt Ideal) :=
  reluScale
    (aggregate64
      (reluScaleMul
        (aggregate128
          (reluScaleMul
            (aggregate128 (scaleMul h (degCol (val_main_v1 e)) w1) (val_main_v1 e) (val_main_v3 e))
            (degCol (val_main_v3 e)) (degCol (val_main_v1 e)) w2)
          (val_main_v1 e) (val_main_v3 e))
        (degCol (val_main_v3 e)) (degCol (val_main_v1 e)) w3)
      (val_main_v1 e) (val_main_v3 e))
    (degCol (val_main_v3 e))

/-- The reference's result is the three layers of its arguments. -/
theorem ref_gcn (h : (⟨S50000x128, .f32⟩ : BufTy).Contents (Elt Ideal)) (e : (⟨S2x1600000, .i32⟩ : BufTy).Contents (Elt Ideal))
    (w1 w2 : (⟨S128x128, .f32⟩ : BufTy).Contents (Elt Ideal)) (w3 : (⟨S128x64, .f32⟩ : BufTy).Contents (Elt Ideal)) :
    val_main_v70 (F := Ideal) h e w1 w2 w3 = gcn h e w1 w2 w3 := by
  rw [ref_last, ref_agg3, ref_dense3, ref_agg2, ref_dense2, ref_agg1, ref_dense1,
    ref_outCol1, ref_outCol2, ref_outCol3, ref_inCol1, ref_inCol2, ref_inCol3]
  rfl

end Cert.Gcn

end
-- ==== Proof.Tiles.lean ====
/-
  What one grid point of each of the four kernel launches leaves in its output block, as a function of the blocks it
  loads, over the extended reals.

  Every body loads its whole input blocks, computes, and stores one whole output block. The first launch stores the
  first layer's dense stage of its row tile; the second and third store a later layer's dense stage (with weights
  [128, 128] and [128, 64]); the fourth stores the last layer's aggregate scaled by the in-degree column and clipped
  at zero. A store through the whole block, read back, is the stored value, and a load through the whole block is the
  block.
-/
import proofs.«129389_j42116449305312_1_alg».proof.Proof.Gen.KernelIdeal.Frame
import proofs.«129389_j42116449305312_1_alg».proof.Proof.LibGraphConv
import Idealize.ShloMosaic.Lib.Pipeline.Value

noncomputable section

namespace Cert.Gcn

open Idealize.ShloMosaic Idealize.ShloMosaic.ValueIdx
open Cert.KernelIdeal Cert.KernelIdeal.Gen Cert.Lib Cert.Lib.GraphConv

/-- The bodies' rectangles all start at the origin of their block. -/
theorem originOffsets : (![0, 0] : Fin 2 → Nat) = fun _ => 0 := funext fun a => by fin_cases a <;> rfl

/-- Row r of the tile at grid position tv is row tv * 5000 + r of the array. -/
def rowOf (tv : ℕ) (h : tv < 10) (r : Fin 5000) : Fin 50000 := ⟨tv * 5000 + r.val, by have := r.isLt; omega⟩

/-! ## The stored values -/

/-- The first launch's stored value: the row tile scaled by its column tile, times the weights. -/
theorem stored0 (x : FVec Ideal S5000x128 .f32) (s : FVec Ideal S5000x1 .f32) (w : FVec Ideal S128x128 .f32) :
    k0_pay1 (F := Ideal) x s w = scaleMul x s w := by
  unfold k0_pay1
  dsimp only
  rw [tile_rowScale]
  exact tile_matMul dot_S5000x128_S128x128_S5000x128_1_0_0_1_n_n.wf none _ _ (rowScale x s) w

/-- The second launch's stored value: scaled by the in-degree tile, clipped, scaled by the out-degree tile, times the
    weights. -/
theorem stored1 (x : FVec Ideal S5000x128 .f32) (sIn sOut : FVec Ideal S5000x1 .f32) (w : FVec Ideal S128x128 .f32) :
    k1_pay1 (F := Ideal) x sIn sOut w = reluScaleMul x sIn sOut w := by
  unfold k1_pay1
  dsimp only
  rw [shapeCast_self, tile_rowScale, tile_relu, tile_rowScale]
  exact tile_matMul dot_S5000x128_S128x128_S5000x128_1_0_0_1_n_n.wf none _ _ (rowScale (relu (rowScale x sIn)) sOut) w

/-- The third launch's stored value: the same with weights [128, 64]. -/
theorem stored2 (x : FVec Ideal S5000x128 .f32) (sIn sOut : FVec Ideal S5000x1 .f32) (w : FVec Ideal S128x64 .f32) :
    k2_pay1 (F := Ideal) x sIn sOut w = reluScaleMul x sIn sOut w := by
  unfold k2_pay1
  dsimp only
  rw [shapeCast_self, tile_rowScale, tile_relu, tile_rowScale]
  exact tile_matMul dot_S5000x128_S128x64_S5000x64_1_0_0_1_n_n.wf none _ _ (rowScale (relu (rowScale x sIn)) sOut) w

/-- The fourth launch's stored value: scaled by the in-degree tile and clipped. -/
theorem stored3 (x : FVec Ideal S5000x64 .f32) (sIn : FVec Ideal S5000x1 .f32) :
    k3_pay1 (F := Ideal) x sIn = reluScale x sIn := by
  unfold k3_pay1
  dsimp only
  rw [shapeCast_self, tile_rowScale, tile_relu]
  rfl

/-! ## The output block after the body -/

theorem block0 (x : Vec Ideal S5000x128 .f32) (s : Vec Ideal S5000x1 .f32) (w : Vec Ideal S128x128 .f32) :
    out0_3 (F := Ideal) x s w = scaleMul x s w := by
  unfold out0_3
  rw [View.canon_unit_zero originOffsets]
  simp only [View.ld_unit_zero (S := S5000x128) originOffsets, View.ld_unit_zero (S := S5000x1) originOffsets,
    View.ld_unit_zero (S := S128x128) originOffsets]
  exact stored0 x s w

theorem block1 (x : Vec Ideal S5000x128 .f32) (sIn sOut : Vec Ideal S5000x1 .f32) (w : Vec Ideal S128x128 .f32) :
    out1_4 (F := Ideal) x sIn sOut w = reluScaleMul x sIn sOut w := by
  unfold out1_4
  rw [View.canon_unit_zero originOffsets]
  simp only [View.ld_unit_zero (S := S5000x128) originOffsets, View.ld_unit_zero (S := S5000x1) originOffsets,
    View.ld_unit_zero (S := S128x128) originOffsets]
  exact stored1 x sIn sOut w

theorem block2 (x : Vec Ideal S5000x128 .f32) (sIn sOut : Vec Ideal S5000x1 .f32) (w : Vec Ideal S128x64 .f32) :
    out2_4 (F := Ideal) x sIn sOut w = reluScaleMul x sIn sOut w := by
  unfold out2_4
  rw [View.canon_unit_zero originOffsets]
  simp only [View.ld_unit_zero (S := S5000x128) originOffsets, View.ld_unit_zero (S := S5000x1) originOffsets,
    View.ld_unit_zero (S := S128x64) originOffsets]
  exact stored2 x sIn sOut w

theorem block3 (x : Vec Ideal S5000x64 .f32) (sIn : Vec Ideal S5000x1 .f32) :
    out3_2 (F := Ideal) x sIn = reluScale x sIn := by
  unfold out3_2
  rw [View.canon_unit_zero originOffsets]
  simp only [View.ld_unit_zero (S := S5000x64) originOffsets, View.ld_unit_zero (S := S5000x1) originOffsets]
  exact stored3 x sIn

end Cert.Gcn

end
-- ==== Proof.Array0.lean ====
/-
  The first launch's output array after its ten grid points: the first layer's dense stage of the arrays the launch
  finds — the node features, the out-degree column, the first weights.

  Point t loads rows 5000 t … 5000 t + 4999 of the features and of the column, and the whole weights, and writes back
  the same rows of the output; the ten row blocks tile the output array.
-/
import proofs.«129389_j42116449305312_1_alg».proof.Proof.Tiles

set_option maxRecDepth 16384

noncomputable section

namespace Cert.Gcn

open Idealize.ShloMosaic Idealize.ShloMosaic.TcCoe Idealize.ShloMosaic.ValueIdx Idealize.SL.Sem
open Cert.KernelIdeal Cert.KernelIdeal.Gen Cert.Lib Cert.Lib.GraphConv

variable (V : (c : Dev nD) → (b : Ref sig .tc) → Buf (Elt Ideal) ((c : Thread nD τ).loc b))

/-- The printed index maps over the grid: a row window's block index is the grid position, on the row axis only; the
    weights' window stays at the origin. -/
theorem grid_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem lt0 (t : Fin cfg0.N) : t.val < 10 := lt_of_lt_of_eq t.isLt N_0

/-! ## The input blocks, read where the output's block says -/

theorem read0_0 (c : Dev nD) (t : Fin cfg0.N) (r : Fin 5000) (j : Fin 128) :
    iblk0 V c 0 t (ix2 r j) = V c main_arg0 (ix2 (rowOf t.val (lt0 t) r) j) := by
  show V c main_arg0 (((cfg0.win 0).blk t).view.emb (ix2 r j)) = _
  refine congrArg (V c main_arg0) ?_
  funext a; apply Fin.ext
  obtain ⟨e0, e1, -, -, -, -, -, -⟩ := grid_facts0 t
  match a with
  | ⟨0, _⟩ => show win0_0.index t (0 : Fin 2) * 5000 + 1 * r.val = t.val * 5000 + r.val; omega
  | ⟨1, _⟩ => show win0_0.index t (1 : Fin 2) * 128 + 1 * j.val = j.val; omega

theorem read0_1 (c : Dev nD) (t : Fin cfg0.N) (r : Fin 5000) :
    iblk0 V c 1 t (ix2 r (0 : Fin 1)) = V c main_v14 (ix2 (rowOf t.val (lt0 t) r) (0 : Fin 1)) := by
  show V c main_v14 (((cfg0.win 1).blk t).view.emb (ix2 r (0 : Fin 1))) = _
  refine congrArg (V c main_v14) ?_
  funext a; apply Fin.ext
  obtain ⟨-, -, e0, e1, -, -, -, -⟩ := grid_facts0 t
  match a with
  | ⟨0, _⟩ => show win0_1.index t (0 : Fin 2) * 5000 + 1 * r.val = t.val * 5000 + r.val; omega
  | ⟨1, _⟩ => show win0_1.index t (1 : Fin 2) * 1 + 1 * 0 = 0; omega

theorem read0_2 (c : Dev nD) (t : Fin cfg0.N) : iblk0 V c 2 t = V c main_arg2 := by
  funext y
  show V c main_arg2 (((cfg0.win 2).blk t).view.emb y) = _
  refine congrArg (V c main_arg2) ?_
  funext a; apply Fin.ext
  obtain ⟨-, -, -, -, e0, e1, -, -⟩ := grid_facts0 t
  match a with
  | ⟨0, _⟩ => show win0_2.index t (0 : Fin 2) * 128 + 1 * (y 0).val = (y 0).val; omega
  | ⟨1, _⟩ => show win0_2.index t (1 : Fin 2) * 128 + 1 * (y 1).val = (y 1).val; omega

/-! ## From the blocks to the array -/

/-- What point t writes back is block t of the stage of the arrays the launch finds. -/
theorem flushed0 (c : Dev nD) (t : Fin cfg0.N) :
    (dat0 V c).flushed 3 t
      = ((cfg0.win 3).blk t).view.read (Elt Ideal) (scaleMul (V c main_arg0) (V c main_v14) (V c main_arg2)) := by
  show (cfg0.win 3).cut (grid0.coords t) ((dat0 V c).after 3 t) = _
  rw [after0_3, block0, read0_2]
  funext y
  obtain ⟨r, q, rfl⟩ : ∃ (r : Fin 5000) (q : Fin 128), y = ix2 r q := ⟨y 0, y 1, eq_ix2 y⟩
  refine (scaleMul_rows (V c main_arg0) (V c main_v14) (V c main_arg2) (iblk0 V c 0 t) (iblk0 V c 1 t)
    (rowOf t.val (lt0 t)) (read0_0 V c t) (read0_1 V c t) r q).trans ?_
  show (scaleMul (V c main_arg0) (V c main_v14) (V c main_arg2)) (ix2 (rowOf t.val (lt0 t) r) q)
    = (scaleMul (V c main_arg0) (V c main_v14) (V c main_arg2)) (((cfg0.win 3).blk t).view.emb (ix2 r q))
  refine congrArg (scaleMul (V c main_arg0) (V c main_v14) (V c main_arg2)) ?_
  funext a; apply Fin.ext
  obtain ⟨-, -, -, -, -, -, e0, e1⟩ := grid_facts0 t
  match a with
  | ⟨0, _⟩ => show t.val * 5000 + r.val = win0_3.index t (0 : Fin 2) * 5000 + 1 * r.val; omega
  | ⟨1, _⟩ => show q.val = win0_3.index t (1 : Fin 2) * 128 + 1 * q.val; omega

/-- An index of the array is in point t's block iff each coordinate is in the block's range on its axis. -/
theorem mem_block0 (t : Fin cfg0.N) (i : S50000x128.Idx) :
    i ∈ ((cfg0.win 3).blk t).view.set
      ↔ ∀ a : Fin 2, win0_3.index t a * S5000x128.size a ≤ (i a).val
          ∧ (i a).val < win0_3.index t a * S5000x128.size a + S5000x128.size a := by
  show i ∈ ((View.whole main_v19).slice (win0_3.rect t)).set ↔ _
  rw [View.set_slice_whole, Rect.mem_set_unit]
  exact Iff.rfl

/-- The ten row blocks tile the array (row p lies in block p / 5000), so the array ends holding the stage of the
    arrays the launch finds. -/
theorem final0 (c : Dev nD) :
    (dat0 V c).arrAt 3 cfg0.N = scaleMul (V c main_arg0) (V c main_v14) (V c main_arg2) :=
  (dat0 V c).arrAt_eq_of_cover 3 _ (fun t _ => flushed0 V c t) fun i => by
    have hi0 : (i 0).val < 50000 := (i 0).isLt
    have hi1 : (i 1).val < 128 := (i 1).isLt
    have ht : (i 0).val / 5000 < cfg0.N := by rw [show cfg0.N = 10 from N_0]; omega
    obtain ⟨-, -, -, -, -, -, e0, e1⟩ := grid_facts0 ⟨(i 0).val / 5000, ht⟩
    refine ⟨⟨(i 0).val / 5000, ht⟩, flush0_3 _, ?_⟩
    rw [mem_block0]
    intro a
    match a with
    | ⟨0, _⟩ =>
      show win0_3.index ⟨(i 0).val / 5000, ht⟩ (0 : Fin 2) * 5000 ≤ (i 0).val
        ∧ (i 0).val < win0_3.index ⟨(i 0).val / 5000, ht⟩ (0 : Fin 2) * 5000 + 5000
      rw [e0]; show (i 0).val / 5000 * 5000 ≤ (i 0).val ∧ (i 0).val < (i 0).val / 5000 * 5000 + 5000; omega
    | ⟨1, _⟩ =>
      show win0_3.index ⟨(i 0).val / 5000, ht⟩ (1 : Fin 2) * 128 ≤ (i 1).val
        ∧ (i 1).val < win0_3.index ⟨(i 0).val / 5000, ht⟩ (1 : Fin 2) * 128 + 128
      rw [e1]; omega

end Cert.Gcn

end
-- ==== Proof.Array1.lean ====
/-
  The second launch's output array after its ten grid points: the second layer's dense stage of the arrays the launch
  finds — the first aggregate, the in-degree and out-degree columns, the second weights.

  Point t loads rows 5000 t … 5000 t + 4999 of the aggregate and of both columns, and the whole weights, and writes back
  the same rows of the output; the ten row blocks tile the output array.
-/
import proofs.«129389_j42116449305312_1_alg».proof.Proof.Tiles

set_option maxRecDepth 16384

noncomputable section

namespace Cert.Gcn

open Idealize.ShloMosaic Idealize.ShloMosaic.TcCoe Idealize.ShloMosaic.ValueIdx Idealize.SL.Sem
open Cert.KernelIdeal Cert.KernelIdeal.Gen Cert.Lib Cert.Lib.GraphConv

variable (V : (c : Dev nD) → (b : Ref sig .tc) → Buf (Elt Ideal) ((c : Thread nD τ).loc b))

/-- The printed index maps over the grid: a row window's block index is the grid position, on the row axis only; the
    weights' window stays at the origin. -/
theorem grid_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem lt1 (t : Fin cfg1.N) : t.val < 10 := lt_of_lt_of_eq t.isLt N_1

/-! ## The input blocks, read where the output's block says -/

theorem read1_0 (c : Dev nD) (t : Fin cfg1.N) (r : Fin 5000) (j : Fin 128) :
    iblk1 V c 0 t (ix2 r j) = V c main_v29 (ix2 (rowOf t.val (lt1 t) r) j) := by
  show V c main_v29 (((cfg1.win 0).blk t).view.emb (ix2 r j)) = _
  refine congrArg (V c main_v29) ?_
  funext a; apply Fin.ext
  obtain ⟨e0, e1, -, -, -, -, -, -, -, -⟩ := grid_facts1 t
  match a with
  | ⟨0, _⟩ => show win1_0.index t (0 : Fin 2) * 5000 + 1 * r.val = t.val * 5000 + r.val; omega
  | ⟨1, _⟩ => show win1_0.index t (1 : Fin 2) * 128 + 1 * j.val = j.val; omega

theorem read1_1 (c : Dev nD) (t : Fin cfg1.N) (r : Fin 5000) :
    iblk1 V c 1 t (ix2 r (0 : Fin 1)) = V c main_v18 (ix2 (rowOf t.val (lt1 t) r) (0 : Fin 1)) := by
  show V c main_v18 (((cfg1.win 1).blk t).view.emb (ix2 r (0 : Fin 1))) = _
  refine congrArg (V c main_v18) ?_
  funext a; apply Fin.ext
  obtain ⟨-, -, e0, e1, -, -, -, -, -, -⟩ := grid_facts1 t
  match a with
  | ⟨0, _⟩ => show win1_1.index t (0 : Fin 2) * 5000 + 1 * r.val = t.val * 5000 + r.val; omega
  | ⟨1, _⟩ => show win1_1.index t (1 : Fin 2) * 1 + 1 * 0 = 0; omega

theorem read1_2 (c : Dev nD) (t : Fin cfg1.N) (r : Fin 5000) :
    iblk1 V c 2 t (ix2 r (0 : Fin 1)) = V c main_v14 (ix2 (rowOf t.val (lt1 t) r) (0 : Fin 1)) := by
  show V c main_v14 (((cfg1.win 2).blk t).view.emb (ix2 r (0 : Fin 1))) = _
  refine congrArg (V c main_v14) ?_
  funext a; apply Fin.ext
  obtain ⟨-, -, -, -, e0, e1, -, -, -, -⟩ := grid_facts1 t
  match a with
  | ⟨0, _⟩ => show win1_2.index t (0 : Fin 2) * 5000 + 1 * r.val = t.val * 5000 + r.val; omega
  | ⟨1, _⟩ => show win1_2.index t (1 : Fin 2) * 1 + 1 * 0 = 0; omega

theorem read1_3 (c : Dev nD) (t : Fin cfg1.N) : iblk1 V c 3 t = V c main_arg3 := by
  funext y
  show V c main_arg3 (((cfg1.win 3).blk t).view.emb y) = _
  refine congrArg (V c main_arg3) ?_
  funext a; apply Fin.ext
  obtain ⟨-, -, -, -, -, -, e0, e1, -, -⟩ := grid_facts1 t
  match a with
  | ⟨0, _⟩ => show win1_3.index t (0 : Fin 2) * 128 + 1 * (y 0).val = (y 0).val; omega
  | ⟨1, _⟩ => show win1_3.index t (1 : Fin 2) * 128 + 1 * (y 1).val = (y 1).val; omega

/-! ## From the blocks to the array -/

/-- What point t writes back is block t of the stage of the arrays the launch finds. -/
theorem flushed1 (c : Dev nD) (t : Fin cfg1.N) :
    (dat1 V c).flushed 4 t
      = ((cfg1.win 4).blk t).view.read (Elt Ideal) (reluScaleMul (V c main_v29) (V c main_v18) (V c main_v14) (V c main_arg3)) := by
  show (cfg1.win 4).cut (grid1.coords t) ((dat1 V c).after 4 t) = _
  rw [after1_4, block1, read1_3]
  funext y
  obtain ⟨r, q, rfl⟩ : ∃ (r : Fin 5000) (q : Fin 128), y = ix2 r q := ⟨y 0, y 1, eq_ix2 y⟩
  refine (reluScaleMul_rows (V c main_v29) (V c main_v18) (V c main_v14) (V c main_arg3) (iblk1 V c 0 t) (iblk1 V c 1 t) (iblk1 V c 2 t)
    (rowOf t.val (lt1 t)) (read1_0 V c t) (read1_1 V c t) (read1_2 V c t) r q).trans ?_
  show (reluScaleMul (V c main_v29) (V c main_v18) (V c main_v14) (V c main_arg3)) (ix2 (rowOf t.val (lt1 t) r) q)
    = (reluScaleMul (V c main_v29) (V c main_v18) (V c main_v14) (V c main_arg3)) (((cfg1.win 4).blk t).view.emb (ix2 r q))
  refine congrArg (reluScaleMul (V c main_v29) (V c main_v18) (V c main_v14) (V c main_arg3)) ?_
  funext a; apply Fin.ext
  obtain ⟨-, -, -, -, -, -, -, -, e0, e1⟩ := grid_facts1 t
  match a with
  | ⟨0, _⟩ => show t.val * 5000 + r.val = win1_4.index t (0 : Fin 2) * 5000 + 1 * r.val; omega
  | ⟨1, _⟩ => show q.val = win1_4.index t (1 : Fin 2) * 128 + 1 * q.val; omega

/-- An index of the array is in point t's block iff each coordinate is in the block's range on its axis. -/
theorem mem_block1 (t : Fin cfg1.N) (i : S50000x128.Idx) :
    i ∈ ((cfg1.win 4).blk t).view.set
      ↔ ∀ a : Fin 2, win1_4.index t a * S5000x128.size a ≤ (i a).val
          ∧ (i a).val < win1_4.index t a * S5000x128.size a + S5000x128.size a := by
  show i ∈ ((View.whole main_v30).slice (win1_4.rect t)).set ↔ _
  rw [View.set_slice_whole, Rect.mem_set_unit]
  exact Iff.rfl

/-- The ten row blocks tile the array (row p lies in block p / 5000), so the array ends holding the stage of the
    arrays the launch finds. -/
theorem final1 (c : Dev nD) :
    (dat1 V c).arrAt 4 cfg1.N = reluScaleMul (V c main_v29) (V c main_v18) (V c main_v14) (V c main_arg3) :=
  (dat1 V c).arrAt_eq_of_cover 4 _ (fun t _ => flushed1 V c t) fun i => by
    have hi0 : (i 0).val < 50000 := (i 0).isLt
    have hi1 : (i 1).val < 128 := (i 1).isLt
    have ht : (i 0).val / 5000 < cfg1.N := by rw [show cfg1.N = 10 from N_1]; omega
    obtain ⟨-, -, -, -, -, -, -, -, e0, e1⟩ := grid_facts1 ⟨(i 0).val / 5000, ht⟩
    refine ⟨⟨(i 0).val / 5000, ht⟩, flush1_4 _, ?_⟩
    rw [mem_block1]
    intro a
    match a with
    | ⟨0, _⟩ =>
      show win1_4.index ⟨(i 0).val / 5000, ht⟩ (0 : Fin 2) * 5000 ≤ (i 0).val
        ∧ (i 0).val < win1_4.index ⟨(i 0).val / 5000, ht⟩ (0 : Fin 2) * 5000 + 5000
      rw [e0]; show (i 0).val / 5000 * 5000 ≤ (i 0).val ∧ (i 0).val < (i 0).val / 5000 * 5000 + 5000; omega
    | ⟨1, _⟩ =>
      show win1_4.index ⟨(i 0).val / 5000, ht⟩ (1 : Fin 2) * 128 ≤ (i 1).val
        ∧ (i 1).val < win1_4.index ⟨(i 0).val / 5000, ht⟩ (1 : Fin 2) * 128 + 128
      rw [e1]; omega

end Cert.Gcn

end
-- ==== Proof.Array2.lean ====
/-
  The third launch's output array after its ten grid points: the third layer's dense stage of the arrays the launch
  finds — the second aggregate, the in-degree and out-degree columns, the third weights [128, 64].

  Point t loads rows 5000 t … 5000 t + 4999 of the aggregate and of both columns, and the whole weights, and writes back
  the same rows of the output; the ten row blocks tile the output array.
-/
import proofs.«129389_j42116449305312_1_alg».proof.Proof.Tiles

set_option maxRecDepth 16384

noncomputable section

namespace Cert.Gcn

open Idealize.ShloMosaic Idealize.ShloMosaic.TcCoe Idealize.ShloMosaic.ValueIdx Idealize.SL.Sem
open Cert.KernelIdeal Cert.KernelIdeal.Gen Cert.Lib Cert.Lib.GraphConv

variable (V : (c : Dev nD) → (b : Ref sig .tc) → Buf (Elt Ideal) ((c : Thread nD τ).loc b))

/-- The printed index maps over the grid: a row window's block index is the grid position, on the row axis only; the
    weights' window stays at the origin. -/
theorem grid_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

theorem lt2 (t : Fin cfg2.N) : t.val < 10 := lt_of_lt_of_eq t.isLt N_2

/-! ## The input blocks, read where the output's block says -/

theorem read2_0 (c : Dev nD) (t : Fin cfg2.N) (r : Fin 5000) (j : Fin 128) :
    iblk2 V c 0 t (ix2 r j) = V c main_v40 (ix2 (rowOf t.val (lt2 t) r) j) := by
  show V c main_v40 (((cfg2.win 0).blk t).view.emb (ix2 r j)) = _
  refine congrArg (V c main_v40) ?_
  funext a; apply Fin.ext
  obtain ⟨e0, e1, -, -, -, -, -, -, -, -⟩ := grid_facts2 t
  match a with
  | ⟨0, _⟩ => show win2_0.index t (0 : Fin 2) * 5000 + 1 * r.val = t.val * 5000 + r.val; omega
  | ⟨1, _⟩ => show win2_0.index t (1 : Fin 2) * 128 + 1 * j.val = j.val; omega

theorem read2_1 (c : Dev nD) (t : Fin cfg2.N) (r : Fin 5000) :
    iblk2 V c 1 t (ix2 r (0 : Fin 1)) = V c main_v18 (ix2 (rowOf t.val (lt2 t) r) (0 : Fin 1)) := by
  show V c main_v18 (((cfg2.win 1).blk t).view.emb (ix2 r (0 : Fin 1))) = _
  refine congrArg (V c main_v18) ?_
  funext a; apply Fin.ext
  obtain ⟨-, -, e0, e1, -, -, -, -, -, -⟩ := grid_facts2 t
  match a with
  | ⟨0, _⟩ => show win2_1.index t (0 : Fin 2) * 5000 + 1 * r.val = t.val * 5000 + r.val; omega
  | ⟨1, _⟩ => show win2_1.index t (1 : Fin 2) * 1 + 1 * 0 = 0; omega

theorem read2_2 (c : Dev nD) (t : Fin cfg2.N) (r : Fin 5000) :
    iblk2 V c 2 t (ix2 r (0 : Fin 1)) = V c main_v14 (ix2 (rowOf t.val (lt2 t) r) (0 : Fin 1)) := by
  show V c main_v14 (((cfg2.win 2).blk t).view.emb (ix2 r (0 : Fin 1))) = _
  refine congrArg (V c main_v14) ?_
  funext a; apply Fin.ext
  obtain ⟨-, -, -, -, e0, e1, -, -, -, -⟩ := grid_facts2 t
  match a with
  | ⟨0, _⟩ => show win2_2.index t (0 : Fin 2) * 5000 + 1 * r.val = t.val * 5000 + r.val; omega
  | ⟨1, _⟩ => show win2_2.index t (1 : Fin 2) * 1 + 1 * 0 = 0; omega

theorem read2_3 (c : Dev nD) (t : Fin cfg2.N) : iblk2 V c 3 t = V c main_arg4 := by
  funext y
  show V c main_arg4 (((cfg2.win 3).blk t).view.emb y) = _
  refine congrArg (V c main_arg4) ?_
  funext a; apply Fin.ext
  obtain ⟨-, -, -, -, -, -, e0, e1, -, -⟩ := grid_facts2 t
  match a with
  | ⟨0, _⟩ => show win2_3.index t (0 : Fin 2) * 128 + 1 * (y 0).val = (y 0).val; omega
  | ⟨1, _⟩ => show win2_3.index t (1 : Fin 2) * 64 + 1 * (y 1).val = (y 1).val; omega

/-! ## From the blocks to the array -/

/-- What point t writes back is block t of the stage of the arrays the launch finds. -/
theorem flushed2 (c : Dev nD) (t : Fin cfg2.N) :
    (dat2 V c).flushed 4 t
      = ((cfg2.win 4).blk t).view.read (Elt Ideal) (reluScaleMul (V c main_v40) (V c main_v18) (V c main_v14) (V c main_arg4)) := by
  show (cfg2.win 4).cut (grid2.coords t) ((dat2 V c).after 4 t) = _
  rw [after2_4, block2, read2_3]
  funext y
  obtain ⟨r, q, rfl⟩ : ∃ (r : Fin 5000) (q : Fin 64), y = ix2 r q := ⟨y 0, y 1, eq_ix2 y⟩
  refine (reluScaleMul_rows (V c main_v40) (V c main_v18) (V c main_v14) (V c main_arg4) (iblk2 V c 0 t) (iblk2 V c 1 t) (iblk2 V c 2 t)
    (rowOf t.val (lt2 t)) (read2_0 V c t) (read2_1 V c t) (read2_2 V c t) r q).trans ?_
  show (reluScaleMul (V c main_v40) (V c main_v18) (V c main_v14) (V c main_arg4)) (ix2 (rowOf t.val (lt2 t) r) q)
    = (reluScaleMul (V c main_v40) (V c main_v18) (V c main_v14) (V c main_arg4)) (((cfg2.win 4).blk t).view.emb (ix2 r q))
  refine congrArg (reluScaleMul (V c main_v40) (V c main_v18) (V c main_v14) (V c main_arg4)) ?_
  funext a; apply Fin.ext
  obtain ⟨-, -, -, -, -, -, -, -, e0, e1⟩ := grid_facts2 t
  match a with
  | ⟨0, _⟩ => show t.val * 5000 + r.val = win2_4.index t (0 : Fin 2) * 5000 + 1 * r.val; omega
  | ⟨1, _⟩ => show q.val = win2_4.index t (1 : Fin 2) * 64 + 1 * q.val; omega

/-- An index of the array is in point t's block iff each coordinate is in the block's range on its axis. -/
theorem mem_block2 (t : Fin cfg2.N) (i : S50000x64.Idx) :
    i ∈ ((cfg2.win 4).blk t).view.set
      ↔ ∀ a : Fin 2, win2_4.index t a * S5000x64.size a ≤ (i a).val
          ∧ (i a).val < win2_4.index t a * S5000x64.size a + S5000x64.size a := by
  show i ∈ ((View.whole main_v41).slice (win2_4.rect t)).set ↔ _
  rw [View.set_slice_whole, Rect.mem_set_unit]
  exact Iff.rfl

/-- The ten row blocks tile the array (row p lies in block p / 5000), so the array ends holding the stage of the
    arrays the launch finds. -/
theorem final2 (c : Dev nD) :
    (dat2 V c).arrAt 4 cfg2.N = reluScaleMul (V c main_v40) (V c main_v18) (V c main_v14) (V c main_arg4) :=
  (dat2 V c).arrAt_eq_of_cover 4 _ (fun t _ => flushed2 V c t) fun i => by
    have hi0 : (i 0).val < 50000 := (i 0).isLt
    have hi1 : (i 1).val < 64 := (i 1).isLt
    have ht : (i 0).val / 5000 < cfg2.N := by rw [show cfg2.N = 10 from N_2]; omega
    obtain ⟨-, -, -, -, -, -, -, -, e0, e1⟩ := grid_facts2 ⟨(i 0).val / 5000, ht⟩
    refine ⟨⟨(i 0).val / 5000, ht⟩, flush2_4 _, ?_⟩
    rw [mem_block2]
    intro a
    match a with
    | ⟨0, _⟩ =>
      show win2_4.index ⟨(i 0).val / 5000, ht⟩ (0 : Fin 2) * 5000 ≤ (i 0).val
        ∧ (i 0).val < win2_4.index ⟨(i 0).val / 5000, ht⟩ (0 : Fin 2) * 5000 + 5000
      rw [e0]; show (i 0).val / 5000 * 5000 ≤ (i 0).val ∧ (i 0).val < (i 0).val / 5000 * 5000 + 5000; omega
    | ⟨1, _⟩ =>
      show win2_4.index ⟨(i 0).val / 5000, ht⟩ (1 : Fin 2) * 64 ≤ (i 1).val
        ∧ (i 1).val < win2_4.index ⟨(i 0).val / 5000, ht⟩ (1 : Fin 2) * 64 + 64
      rw [e1]; omega

end Cert.Gcn

end
-- ==== Proof.Array3.lean ====
/-
  The fourth launch's output array after its ten grid points: the third aggregate scaled by the in-degree column and
  clipped below at zero, of the arrays the launch finds.

  Point t loads rows 5000 t … 5000 t + 4999 of the aggregate and of the column and writes back the same rows of the
  output; the ten row blocks tile the output array.
-/
import proofs.«129389_j42116449305312_1_alg».proof.Proof.Tiles

set_option maxRecDepth 16384

noncomputable section

namespace Cert.Gcn

open Idealize.ShloMosaic Idealize.ShloMosaic.TcCoe Idealize.ShloMosaic.ValueIdx Idealize.SL.Sem
open Cert.KernelIdeal Cert.KernelIdeal.Gen Cert.Lib Cert.Lib.GraphConv

variable (V : (c : Dev nD) → (b : Ref sig .tc) → Buf (Elt Ideal) ((c : Thread nD τ).loc b))

/-- The printed index maps over the grid: a row window's block index is the grid position, on the row axis only; the
    weights' window stays at the origin. -/
theorem grid_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

theorem lt3 (t : Fin cfg3.N) : t.val < 10 := lt_of_lt_of_eq t.isLt N_3

/-! ## The input blocks, read where the output's block says -/

theorem read3_0 (c : Dev nD) (t : Fin cfg3.N) (r : Fin 5000) (j : Fin 64) :
    iblk3 V c 0 t (ix2 r j) = V c main_v51 (ix2 (rowOf t.val (lt3 t) r) j) := by
  show V c main_v51 (((cfg3.win 0).blk t).view.emb (ix2 r j)) = _
  refine congrArg (V c main_v51) ?_
  funext a; apply Fin.ext
  obtain ⟨e0, e1, -, -, -, -⟩ := grid_facts3 t
  match a with
  | ⟨0, _⟩ => show win3_0.index t (0 : Fin 2) * 5000 + 1 * r.val = t.val * 5000 + r.val; omega
  | ⟨1, _⟩ => show win3_0.index t (1 : Fin 2) * 64 + 1 * j.val = j.val; omega

theorem read3_1 (c : Dev nD) (t : Fin cfg3.N) (r : Fin 5000) :
    iblk3 V c 1 t (ix2 r (0 : Fin 1)) = V c main_v18 (ix2 (rowOf t.val (lt3 t) r) (0 : Fin 1)) := by
  show V c main_v18 (((cfg3.win 1).blk t).view.emb (ix2 r (0 : Fin 1))) = _
  refine congrArg (V c main_v18) ?_
  funext a; apply Fin.ext
  obtain ⟨-, -, e0, e1, -, -⟩ := grid_facts3 t
  match a with
  | ⟨0, _⟩ => show win3_1.index t (0 : Fin 2) * 5000 + 1 * r.val = t.val * 5000 + r.val; omega
  | ⟨1, _⟩ => show win3_1.index t (1 : Fin 2) * 1 + 1 * 0 = 0; omega

/-! ## From the blocks to the array -/

/-- What point t writes back is block t of the stage of the arrays the launch finds. -/
theorem flushed3 (c : Dev nD) (t : Fin cfg3.N) :
    (dat3 V c).flushed 2 t
      = ((cfg3.win 2).blk t).view.read (Elt Ideal) (reluScale (V c main_v51) (V c main_v18)) := by
  show (cfg3.win 2).cut (grid3.coords t) ((dat3 V c).after 2 t) = _
  rw [after3_2, block3]
  funext y
  obtain ⟨r, q, rfl⟩ : ∃ (r : Fin 5000) (q : Fin 64), y = ix2 r q := ⟨y 0, y 1, eq_ix2 y⟩
  refine (reluScale_rows (V c main_v51) (V c main_v18) (iblk3 V c 0 t) (iblk3 V c 1 t)
    (rowOf t.val (lt3 t)) (read3_0 V c t) (read3_1 V c t) r q).trans ?_
  show (reluScale (V c main_v51) (V c main_v18)) (ix2 (rowOf t.val (lt3 t) r) q)
    = (reluScale (V c main_v51) (V c main_v18)) (((cfg3.win 2).blk t).view.emb (ix2 r q))
  refine congrArg (reluScale (V c main_v51) (V c main_v18)) ?_
  funext a; apply Fin.ext
  obtain ⟨-, -, -, -, e0, e1⟩ := grid_facts3 t
  match a with
  | ⟨0, _⟩ => show t.val * 5000 + r.val = win3_2.index t (0 : Fin 2) * 5000 + 1 * r.val; omega
  | ⟨1, _⟩ => show q.val = win3_2.index t (1 : Fin 2) * 64 + 1 * q.val; omega

/-- An index of the array is in point t's block iff each coordinate is in the block's range on its axis. -/
theorem mem_block3 (t : Fin cfg3.N) (i : S50000x64.Idx) :
    i ∈ ((cfg3.win 2).blk t).view.set
      ↔ ∀ a : Fin 2, win3_2.index t a * S5000x64.size a ≤ (i a).val
          ∧ (i a).val < win3_2.index t a * S5000x64.size a + S5000x64.size a := by
  show i ∈ ((View.whole main_v52).slice (win3_2.rect t)).set ↔ _
  rw [View.set_slice_whole, Rect.mem_set_unit]
  exact Iff.rfl

/-- The ten row blocks tile the array (row p lies in block p / 5000), so the array ends holding the stage of the
    arrays the launch finds. -/
theorem final3 (c : Dev nD) :
    (dat3 V c).arrAt 2 cfg3.N = reluScale (V c main_v51) (V c main_v18) :=
  (dat3 V c).arrAt_eq_of_cover 2 _ (fun t _ => flushed3 V c t) fun i => by
    have hi0 : (i 0).val < 50000 := (i 0).isLt
    have hi1 : (i 1).val < 64 := (i 1).isLt
    have ht : (i 0).val / 5000 < cfg3.N := by rw [show cfg3.N = 10 from N_3]; omega
    obtain ⟨-, -, -, -, e0, e1⟩ := grid_facts3 ⟨(i 0).val / 5000, ht⟩
    refine ⟨⟨(i 0).val / 5000, ht⟩, flush3_2 _, ?_⟩
    rw [mem_block3]
    intro a
    match a with
    | ⟨0, _⟩ =>
      show win3_2.index ⟨(i 0).val / 5000, ht⟩ (0 : Fin 2) * 5000 ≤ (i 0).val
        ∧ (i 0).val < win3_2.index ⟨(i 0).val / 5000, ht⟩ (0 : Fin 2) * 5000 + 5000
      rw [e0]; show (i 0).val / 5000 * 5000 ≤ (i 0).val ∧ (i 0).val < (i 0).val / 5000 * 5000 + 5000; omega
    | ⟨1, _⟩ =>
      show win3_2.index ⟨(i 0).val / 5000, ht⟩ (1 : Fin 2) * 64 ≤ (i 1).val
        ∧ (i 1).val < win3_2.index ⟨(i 0).val / 5000, ht⟩ (1 : Fin 2) * 64 + 64
      rw [e1]; omega

end Cert.Gcn

end
-- ==== Proof.Boundaries.lean ====
/-
  The idealized kernel program's result as the three layers of its arguments.

  The program's run ends with the result buffer at the last of thirteen segment boundaries. Walking back from it:
  the fourth launch's output array is the scaled and clipped third aggregate of what that launch finds; the third
  aggregate is the aggregation, along the edges, of the third launch's output; and so on down to the first launch,
  which finds the node features, the out-degree column and the first weights as the first five stretches of host
  operations leave them. A buffer that a stretch does not write keeps its contents across it, and so does one that a launch
  does not own or only reads: so the edge rows, the two degree columns and the weights are, at every launch, what they were when the
  first launch was entered.
-/
import proofs.«129389_j42116449305312_1_alg».proof.Proof.Gen.KernelIdeal.Frame
import proofs.«129389_j42116449305312_1_alg».proof.Proof.HostChain
import proofs.«129389_j42116449305312_1_alg».proof.Proof.Array0
import proofs.«129389_j42116449305312_1_alg».proof.Proof.Array1
import proofs.«129389_j42116449305312_1_alg».proof.Proof.Array2
import proofs.«129389_j42116449305312_1_alg».proof.Proof.Array3

set_option maxRecDepth 16384

noncomputable section

namespace Cert.Gcn

open Idealize.ShloMosaic Idealize.ShloMosaic.TcCoe Idealize.SL.Sem Idealize.ShloMosaic.StableHlo
open Cert.KernelIdeal Cert.KernelIdeal.Gen Cert.Lib.GraphConv

/-- A buffer that no operation of a stretch writes keeps its contents through the stretch. -/
macro "kept" ops:ident : tactic => `(tactic| exact StableHlo.after_of_forall_not_mem _ _ (List.forall_iff_forall_mem.mp (by
  simp only [$ops:ident, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide))))

section Walk

variable {F : FTy → Type} [FloatOps F]
variable (m : (ℓ : Loc nD τ sig) → Buf (Elt F) ℓ) (ρ : Dev nD → PrngReg)

/-! ## What the first launch finds -/

theorem feat_at5 (c : Dev nD) : W5 m ρ c (Proc.devRef .tc main_arg0) = m ((c : Thread nD τ).loc main_arg0) :=
  calc W5 m ρ c (Proc.devRef .tc main_arg0)
    _ = W4 m ρ c (Proc.devRef .tc main_arg0) := by kept hostOps0_4
    _ = W3 m ρ c (Proc.devRef .tc main_arg0) := by kept hostOps0_3
    _ = W2 m ρ c (Proc.devRef .tc main_arg0) := by kept hostOps0_2
    _ = W1 m ρ c (Proc.devRef .tc main_arg0) := by kept hostOps0_1
    _ = W0 m ρ c (Proc.devRef .tc main_arg0) := by kept hostOps0
    _ = m ((c : Thread nD τ).loc main_arg0) := rfl

theorem w1_at5 (c : Dev nD) : W5 m ρ c (Proc.devRef .tc main_arg2) = m ((c : Thread nD τ).loc main_arg2) :=
  calc W5 m ρ c (Proc.devRef .tc main_arg2)
    _ = W4 m ρ c (Proc.devRef .tc main_arg2) := by kept hostOps0_4
    _ = W3 m ρ c (Proc.devRef .tc main_arg2) := by kept hostOps0_3
    _ = W2 m ρ c (Proc.devRef .tc main_arg2) := by kept hostOps0_2
    _ = W1 m ρ c (Proc.devRef .tc main_arg2) := by kept hostOps0_1
    _ = W0 m ρ c (Proc.devRef .tc main_arg2) := by kept hostOps0
    _ = m ((c : Thread nD τ).loc main_arg2) := rfl

theorem w2_at5 (c : Dev nD) : W5 m ρ c (Proc.devRef .tc main_arg3) = m ((c : Thread nD τ).loc main_arg3) :=
  calc W5 m ρ c (Proc.devRef .tc main_arg3)
    _ = W4 m ρ c (Proc.devRef .tc main_arg3) := by kept hostOps0_4
    _ = W3 m ρ c (Proc.devRef .tc main_arg3) := by kept hostOps0_3
    _ = W2 m ρ c (Proc.devRef .tc main_arg3) := by kept hostOps0_2
    _ = W1 m ρ c (Proc.devRef .tc main_arg3) := by kept hostOps0_1
    _ = W0 m ρ c (Proc.devRef .tc main_arg3) := by kept hostOps0
    _ = m ((c : Thread nD τ).loc main_arg3) := rfl

theorem w3_at5 (c : Dev nD) : W5 m ρ c (Proc.devRef .tc main_arg4) = m ((c : Thread nD τ).loc main_arg4) :=
  calc W5 m ρ c (Proc.devRef .tc main_arg4)
    _ = W4 m ρ c (Proc.devRef .tc main_arg4) := by kept hostOps0_4
    _ = W3 m ρ c (Proc.devRef .tc main_arg4) := by kept hostOps0_3
    _ = W2 m ρ c (Proc.devRef .tc main_arg4) := by kept hostOps0_2
    _ = W1 m ρ c (Proc.devRef .tc main_arg4) := by kept hostOps0_1
    _ = W0 m ρ c (Proc.devRef .tc main_arg4) := by kept hostOps0
    _ = m ((c : Thread nD τ).loc main_arg4) := rfl

/-- The row of source nodes. -/
theorem src_at5 (c : Dev nD) : W5 m ρ c (Proc.devRef .tc main_v1) = Cert.ReferenceIdeal.Read.val_main_v1 (m ((c : Thread nD τ).loc main_arg1)) :=
  calc W5 m ρ c (Proc.devRef .tc main_v1)
    _ = W4 m ρ c (Proc.devRef .tc main_v1) := by kept hostOps0_4
    _ = W3 m ρ c (Proc.devRef .tc main_v1) := by kept hostOps0_3
    _ = W2 m ρ c (Proc.devRef .tc main_v1) := by kept hostOps0_2
    _ = W1 m ρ c (Proc.devRef .tc main_v1) := by kept hostOps0_1
    _ = Cert.ReferenceIdeal.Read.val_main_v1 (m ((c : Thread nD τ).loc main_arg1)) := by
      show StableHlo.after hostOps0 (W0 m ρ c) (Proc.devRef .tc main_v1) = _
      simp only [hostOps0]
      after_results
      rfl

/-- The row of destination nodes. -/
theorem dst_at5 (c : Dev nD) : W5 m ρ c (Proc.devRef .tc main_v3) = Cert.ReferenceIdeal.Read.val_main_v3 (m ((c : Thread nD τ).loc main_arg1)) :=
  calc W5 m ρ c (Proc.devRef .tc main_v3)
    _ = W4 m ρ c (Proc.devRef .tc main_v3) := by kept hostOps0_4
    _ = W3 m ρ c (Proc.devRef .tc main_v3) := by kept hostOps0_3
    _ = W2 m ρ c (Proc.devRef .tc main_v3) := by kept hostOps0_2
    _ = W1 m ρ c (Proc.devRef .tc main_v3) := by kept hostOps0_1
    _ = Cert.ReferenceIdeal.Read.val_main_v3 (m ((c : Thread nD τ).loc main_arg1)) := by
      show StableHlo.after hostOps0 (W0 m ρ c) (Proc.devRef .tc main_v3) = _
      simp only [hostOps0]
      after_results
      rfl

/-- The out-degree column: the degree column of the source row. -/
theorem outCol_at5 (c : Dev nD) : W5 m ρ c (Proc.devRef .tc main_v14) = degCol (Cert.ReferenceIdeal.Read.val_main_v1 (m ((c : Thread nD τ).loc main_arg1))) :=
  calc W5 m ρ c (Proc.devRef .tc main_v14)
    _ = W4 m ρ c (Proc.devRef .tc main_v14) := by kept hostOps0_4
    _ = W3 m ρ c (Proc.devRef .tc main_v14) := by kept hostOps0_3
    _ = degCol (Cert.ReferenceIdeal.Read.val_main_v1 (m ((c : Thread nD τ).loc main_arg1))) := by
      show StableHlo.after hostOps0_2 (StableHlo.after hostOps0_1 (StableHlo.after hostOps0 (W0 m ρ c))) (Proc.devRef .tc main_v14) = _
      simp only [hostOps0_2, hostOps0_1, hostOps0]
      after_results
      rfl

/-- The in-degree column: the degree column of the destination row. -/
theorem inCol_at5 (c : Dev nD) : W5 m ρ c (Proc.devRef .tc main_v18) = degCol (Cert.ReferenceIdeal.Read.val_main_v3 (m ((c : Thread nD τ).loc main_arg1))) := by
  show StableHlo.after hostOps0_4 (StableHlo.after hostOps0_3 (StableHlo.after hostOps0_2 (StableHlo.after hostOps0_1
    (StableHlo.after hostOps0 (W0 m ρ c))))) (Proc.devRef .tc main_v18) = _
  simp only [hostOps0_4, hostOps0_3, hostOps0_2, hostOps0_1, hostOps0]
  after_results
  rfl

/-! ## What later launches find of the buffers no launch or later stretch writes -/

theorem src_at6 (c : Dev nD) : W6 m ρ c (Proc.devRef .tc main_v1) = W5 m ρ c (Proc.devRef .tc main_v1) :=
  calc W6 m ρ c (Proc.devRef .tc main_v1)
    _ = W5 m ρ c (Proc.devRef .tc main_v1) := W6_of_ne m ρ c main_v1 (by decide)

theorem src_at8 (c : Dev nD) : W8 m ρ c (Proc.devRef .tc main_v1) = W5 m ρ c (Proc.devRef .tc main_v1) :=
  calc W8 m ρ c (Proc.devRef .tc main_v1)
    _ = W7 m ρ c (Proc.devRef .tc main_v1) := W8_of_ne m ρ c main_v1 (by decide)
    _ = W6 m ρ c (Proc.devRef .tc main_v1) := by kept hostOps1
    _ = W5 m ρ c (Proc.devRef .tc main_v1) := W6_of_ne m ρ c main_v1 (by decide)

theorem src_at10 (c : Dev nD) : W10 m ρ c (Proc.devRef .tc main_v1) = W5 m ρ c (Proc.devRef .tc main_v1) :=
  calc W10 m ρ c (Proc.devRef .tc main_v1)
    _ = W9 m ρ c (Proc.devRef .tc main_v1) := W10_of_ne m ρ c main_v1 (by decide)
    _ = W8 m ρ c (Proc.devRef .tc main_v1) := by kept hostOps2
    _ = W7 m ρ c (Proc.devRef .tc main_v1) := W8_of_ne m ρ c main_v1 (by decide)
    _ = W6 m ρ c (Proc.devRef .tc main_v1) := by kept hostOps1
    _ = W5 m ρ c (Proc.devRef .tc main_v1) := W6_of_ne m ρ c main_v1 (by decide)

theorem dst_at6 (c : Dev nD) : W6 m ρ c (Proc.devRef .tc main_v3) = W5 m ρ c (Proc.devRef .tc main_v3) :=
  calc W6 m ρ c (Proc.devRef .tc main_v3)
    _ = W5 m ρ c (Proc.devRef .tc main_v3) := W6_of_ne m ρ c main_v3 (by decide)

theorem dst_at8 (c : Dev nD) : W8 m ρ c (Proc.devRef .tc main_v3) = W5 m ρ c (Proc.devRef .tc main_v3) :=
  calc W8 m ρ c (Proc.devRef .tc main_v3)
    _ = W7 m ρ c (Proc.devRef .tc main_v3) := W8_of_ne m ρ c main_v3 (by decide)
    _ = W6 m ρ c (Proc.devRef .tc main_v3) := by kept hostOps1
    _ = W5 m ρ c (Proc.devRef .tc main_v3) := W6_of_ne m ρ c main_v3 (by decide)

theorem dst_at10 (c : Dev nD) : W10 m ρ c (Proc.devRef .tc main_v3) = W5 m ρ c (Proc.devRef .tc main_v3) :=
  calc W10 m ρ c (Proc.devRef .tc main_v3)
    _ = W9 m ρ c (Proc.devRef .tc main_v3) := W10_of_ne m ρ c main_v3 (by decide)
    _ = W8 m ρ c (Proc.devRef .tc main_v3) := by kept hostOps2
    _ = W7 m ρ c (Proc.devRef .tc main_v3) := W8_of_ne m ρ c main_v3 (by decide)
    _ = W6 m ρ c (Proc.devRef .tc main_v3) := by kept hostOps1
    _ = W5 m ρ c (Proc.devRef .tc main_v3) := W6_of_ne m ρ c main_v3 (by decide)

theorem inCol_at7 (c : Dev nD) : W7 m ρ c (Proc.devRef .tc main_v18) = W5 m ρ c (Proc.devRef .tc main_v18) :=
  calc W7 m ρ c (Proc.devRef .tc main_v18)
    _ = W6 m ρ c (Proc.devRef .tc main_v18) := by kept hostOps1
    _ = W5 m ρ c (Proc.devRef .tc main_v18) := W6_of_ne m ρ c main_v18 (by decide)

theorem inCol_at9 (c : Dev nD) : W9 m ρ c (Proc.devRef .tc main_v18) = W5 m ρ c (Proc.devRef .tc main_v18) :=
  calc W9 m ρ c (Proc.devRef .tc main_v18)
    _ = W8 m ρ c (Proc.devRef .tc main_v18) := by kept hostOps2
    _ = W7 m ρ c (Proc.devRef .tc main_v18) := (W8_arr m ρ c 1).trans (((dat1 (V7 m ρ) c).arrAt_in 1 rfl _).trans (A_eq1 (V7 m ρ) c 1))
    _ = W6 m ρ c (Proc.devRef .tc main_v18) := by kept hostOps1
    _ = W5 m ρ c (Proc.devRef .tc main_v18) := W6_of_ne m ρ c main_v18 (by decide)

theorem inCol_at11 (c : Dev nD) : W11 m ρ c (Proc.devRef .tc main_v18) = W5 m ρ c (Proc.devRef .tc main_v18) :=
  calc W11 m ρ c (Proc.devRef .tc main_v18)
    _ = W10 m ρ c (Proc.devRef .tc main_v18) := by kept hostOps3
    _ = W9 m ρ c (Proc.devRef .tc main_v18) := (W10_arr m ρ c 1).trans (((dat2 (V9 m ρ) c).arrAt_in 1 rfl _).trans (A_eq2 (V9 m ρ) c 1))
    _ = W8 m ρ c (Proc.devRef .tc main_v18) := by kept hostOps2
    _ = W7 m ρ c (Proc.devRef .tc main_v18) := (W8_arr m ρ c 1).trans (((dat1 (V7 m ρ) c).arrAt_in 1 rfl _).trans (A_eq1 (V7 m ρ) c 1))
    _ = W6 m ρ c (Proc.devRef .tc main_v18) := by kept hostOps1
    _ = W5 m ρ c (Proc.devRef .tc main_v18) := W6_of_ne m ρ c main_v18 (by decide)

theorem outCol_at7 (c : Dev nD) : W7 m ρ c (Proc.devRef .tc main_v14) = W5 m ρ c (Proc.devRef .tc main_v14) :=
  calc W7 m ρ c (Proc.devRef .tc main_v14)
    _ = W6 m ρ c (Proc.devRef .tc main_v14) := by kept hostOps1
    _ = W5 m ρ c (Proc.devRef .tc main_v14) := (W6_arr m ρ c 1).trans (((dat0 (V5 m ρ) c).arrAt_in 1 rfl _).trans (A_eq0 (V5 m ρ) c 1))

theorem outCol_at9 (c : Dev nD) : W9 m ρ c (Proc.devRef .tc main_v14) = W5 m ρ c (Proc.devRef .tc main_v14) :=
  calc W9 m ρ c (Proc.devRef .tc main_v14)
    _ = W8 m ρ c (Proc.devRef .tc main_v14) := by kept hostOps2
    _ = W7 m ρ c (Proc.devRef .tc main_v14) := (W8_arr m ρ c 2).trans (((dat1 (V7 m ρ) c).arrAt_in 2 rfl _).trans (A_eq1 (V7 m ρ) c 2))
    _ = W6 m ρ c (Proc.devRef .tc main_v14) := by kept hostOps1
    _ = W5 m ρ c (Proc.devRef .tc main_v14) := (W6_arr m ρ c 1).trans (((dat0 (V5 m ρ) c).arrAt_in 1 rfl _).trans (A_eq0 (V5 m ρ) c 1))

theorem w2_at7 (c : Dev nD) : W7 m ρ c (Proc.devRef .tc main_arg3) = W5 m ρ c (Proc.devRef .tc main_arg3) :=
  calc W7 m ρ c (Proc.devRef .tc main_arg3)
    _ = W6 m ρ c (Proc.devRef .tc main_arg3) := by kept hostOps1
    _ = W5 m ρ c (Proc.devRef .tc main_arg3) := W6_of_ne m ρ c main_arg3 (by decide)

theorem w3_at9 (c : Dev nD) : W9 m ρ c (Proc.devRef .tc main_arg4) = W5 m ρ c (Proc.devRef .tc main_arg4) :=
  calc W9 m ρ c (Proc.devRef .tc main_arg4)
    _ = W8 m ρ c (Proc.devRef .tc main_arg4) := by kept hostOps2
    _ = W7 m ρ c (Proc.devRef .tc main_arg4) := W8_of_ne m ρ c main_arg4 (by decide)
    _ = W6 m ρ c (Proc.devRef .tc main_arg4) := by kept hostOps1
    _ = W5 m ρ c (Proc.devRef .tc main_arg4) := W6_of_ne m ρ c main_arg4 (by decide)

/-! ## The aggregations between the launches -/

theorem agg_at7 (c : Dev nD) : W7 m ρ c (Proc.devRef .tc main_v29)
    = aggregate128 (W6 m ρ c (Proc.devRef .tc main_v19)) (W6 m ρ c (Proc.devRef .tc main_v1)) (W6 m ρ c (Proc.devRef .tc main_v3)) := by
  show StableHlo.after hostOps1 (W6 m ρ c) (Proc.devRef .tc main_v29) = _
  simp only [hostOps1]
  after_results
  rfl

theorem agg_at9 (c : Dev nD) : W9 m ρ c (Proc.devRef .tc main_v40)
    = aggregate128 (W8 m ρ c (Proc.devRef .tc main_v30)) (W8 m ρ c (Proc.devRef .tc main_v1)) (W8 m ρ c (Proc.devRef .tc main_v3)) := by
  show StableHlo.after hostOps2 (W8 m ρ c) (Proc.devRef .tc main_v40) = _
  simp only [hostOps2]
  after_results
  rfl

theorem agg_at11 (c : Dev nD) : W11 m ρ c (Proc.devRef .tc main_v51)
    = aggregate64 (W10 m ρ c (Proc.devRef .tc main_v41)) (W10 m ρ c (Proc.devRef .tc main_v1)) (W10 m ρ c (Proc.devRef .tc main_v3)) := by
  show StableHlo.after hostOps3 (W10 m ρ c) (Proc.devRef .tc main_v51) = _
  simp only [hostOps3]
  after_results
  rfl

end Walk

/-! ## The composition, over the extended reals -/

section Value

variable (m : (ℓ : Loc nD τ sig) → Buf (Elt Ideal) ℓ) (ρ : Dev nD → PrngReg)

/-- The first launch's output: the first layer's dense stage of the arguments. -/
theorem layer1_at6 (c : Dev nD) : W6 m ρ c (Proc.devRef .tc main_v19)
    = scaleMul (m ((c : Thread nD τ).loc main_arg0)) (degCol (Cert.ReferenceIdeal.Read.val_main_v1 (m ((c : Thread nD τ).loc main_arg1)))) (m ((c : Thread nD τ).loc main_arg2)) := by
  refine (W6_arr m ρ c 3).trans ((final0 (V5 m ρ) c).trans ?_)
  show scaleMul (W5 m ρ c (Proc.devRef .tc main_arg0)) (W5 m ρ c (Proc.devRef .tc main_v14)) (W5 m ρ c (Proc.devRef .tc main_arg2)) = _
  rw [feat_at5, outCol_at5, w1_at5]

/-- The second launch's output, from the first aggregate it finds. -/
theorem layer2_at8 (c : Dev nD) : W8 m ρ c (Proc.devRef .tc main_v30)
    = reluScaleMul (W7 m ρ c (Proc.devRef .tc main_v29)) (degCol (Cert.ReferenceIdeal.Read.val_main_v3 (m ((c : Thread nD τ).loc main_arg1)))) (degCol (Cert.ReferenceIdeal.Read.val_main_v1 (m ((c : Thread nD τ).loc main_arg1))))
        (m ((c : Thread nD τ).loc main_arg3)) := by
  refine (W8_arr m ρ c 4).trans ((final1 (V7 m ρ) c).trans ?_)
  show reluScaleMul (W7 m ρ c (Proc.devRef .tc main_v29)) (W7 m ρ c (Proc.devRef .tc main_v18)) (W7 m ρ c (Proc.devRef .tc main_v14)) (W7 m ρ c (Proc.devRef .tc main_arg3)) = _
  rw [inCol_at7, outCol_at7, w2_at7, inCol_at5, outCol_at5, w2_at5]

/-- The third launch's output, from the second aggregate it finds. -/
theorem layer3_at10 (c : Dev nD) : W10 m ρ c (Proc.devRef .tc main_v41)
    = reluScaleMul (W9 m ρ c (Proc.devRef .tc main_v40)) (degCol (Cert.ReferenceIdeal.Read.val_main_v3 (m ((c : Thread nD τ).loc main_arg1)))) (degCol (Cert.ReferenceIdeal.Read.val_main_v1 (m ((c : Thread nD τ).loc main_arg1))))
        (m ((c : Thread nD τ).loc main_arg4)) := by
  refine (W10_arr m ρ c 4).trans ((final2 (V9 m ρ) c).trans ?_)
  show reluScaleMul (W9 m ρ c (Proc.devRef .tc main_v40)) (W9 m ρ c (Proc.devRef .tc main_v18)) (W9 m ρ c (Proc.devRef .tc main_v14)) (W9 m ρ c (Proc.devRef .tc main_arg4)) = _
  rw [inCol_at9, outCol_at9, w3_at9, inCol_at5, outCol_at5, w3_at5]

/-- The fourth launch's output, from the third aggregate it finds. -/
theorem last_at12 (c : Dev nD) : W12 m ρ c (Proc.devRef .tc main_v52)
    = reluScale (W11 m ρ c (Proc.devRef .tc main_v51)) (degCol (Cert.ReferenceIdeal.Read.val_main_v3 (m ((c : Thread nD τ).loc main_arg1)))) := by
  refine (W12_arr m ρ c 2).trans ((final3 (V11 m ρ) c).trans ?_)
  show reluScale (W11 m ρ c (Proc.devRef .tc main_v51)) (W11 m ρ c (Proc.devRef .tc main_v18)) = _
  rw [inCol_at11, inCol_at5]

/-- THE RESULT: the last boundary's contents at the result buffer are the three layers of the arguments. -/
theorem kernel_value (c : Dev nD) : W12 m ρ c (Proc.devRef .tc main_v52)
    = gcn (m ((c : Thread nD τ).loc main_arg0)) (m ((c : Thread nD τ).loc main_arg1)) (m ((c : Thread nD τ).loc main_arg2))
        (m ((c : Thread nD τ).loc main_arg3)) (m ((c : Thread nD τ).loc main_arg4)) := by
  rw [last_at12, agg_at11, layer3_at10, agg_at9, layer2_at8, agg_at7, layer1_at6,
    src_at10, dst_at10, src_at8, dst_at8, src_at6, dst_at6, src_at5, dst_at5]
  rfl

end Value

end Cert.Gcn

end
-- ==== Proof.lean ====
/-
  A three-layer graph convolution with symmetric degree normalisation: a tiled kernel program against its plain
  reference, equal over the extended reals.

  Both programs read node features h [50000, 128], an edge list [2, 1600000] of source and destination nodes, and
  weights [128, 128], [128, 128], [128, 64]. Both compute, from the edge list, the out-degree and in-degree of every
  node, clip them below at one and raise them to the power minus one half; and then three times: scale every node's
  features by its out-degree factor, multiply by the layer's weights, add up along the edges (gather the rows at the
  sources, scatter-add them at the destinations), scale by the in-degree factor, clip below at zero.

  The kernel program does the scaling, the clipping and the product inside four launches, each over ten row blocks
  of five thousand nodes, with the degree factors as columns [50000, 1] cut into the same row blocks; the reference
  does them as whole-array operations. Every entry of every stage is the same expression in both — the sum over the
  128 shared positions of (feature * factor) * weight, in the same order — so the two results are equal entry by
  entry with no law of arithmetic used, and the precondition (finite float inputs) is never needed. The counting of
  degrees, the power, the gathers and the scatter-adds are the same host operations applied to equal operands in both
  programs and are never opened.

  Read off the kernel program's run: each launch's output array is its stage of the arrays the launch finds (the ten
  row blocks tile the array; row p lies in block p / 5000); the buffers between the launches are carried by the host
  operations. Read off the reference's run: each multiplication by a repeated column, maximum with a repeated zero and
  general dot is the corresponding stage. Both results are the one function gcn of the five arguments.

  The rounding of the product's operands to bf16 inside the launches is the identity on extended reals, and the
  idealized kernel program is the kernel program's own text read over the extended reals, so there is nothing to
  preserve. The three frames are the programs' own runs with the result dropped.
-/
import proofs.«129389_j42116449305312_1_alg».proof.Defs
import proofs.«129389_j42116449305312_1_alg».proof.Proof.Gen.Kernel
import proofs.«129389_j42116449305312_1_alg».proof.Proof.Gen.Kernel.Skeleton
import proofs.«129389_j42116449305312_1_alg».proof.Proof.Gen.Kernel.Launch
import proofs.«129389_j42116449305312_1_alg».proof.Proof.Gen.Kernel.Points
import proofs.«129389_j42116449305312_1_alg».proof.Proof.Gen.Kernel.Frame
import proofs.«129389_j42116449305312_1_alg».proof.Proof.Gen.KernelIdeal
import proofs.«129389_j42116449305312_1_alg».proof.Proof.Gen.KernelIdeal.Skeleton
import proofs.«129389_j42116449305312_1_alg».proof.Proof.Gen.KernelIdeal.Launch
import proofs.«129389_j42116449305312_1_alg».proof.Proof.Gen.KernelIdeal.Points
import proofs.«129389_j42116449305312_1_alg».proof.Proof.Gen.KernelIdeal.Frame
import proofs.«129389_j42116449305312_1_alg».proof.Proof.Gen.ReferenceIdeal
import proofs.«129389_j42116449305312_1_alg».proof.Proof.Gen.Pre_finite_inputs
import proofs.«129389_j42116449305312_1_alg».proof.Proof.Gen.ReferenceIdeal.Run
import proofs.«129389_j42116449305312_1_alg».proof.Proof.Gen.ReferenceIdeal.Read
import proofs.«129389_j42116449305312_1_alg».proof.Proof.KernelRun
import proofs.«129389_j42116449305312_1_alg».proof.Proof.Boundaries
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference's run with its result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealized program differs from the word-level one in no operation. -/
theorem preserves : Cert.preserves_Kernel_KernelIdeal := trivial

/-- From memories agreeing on the arguments both programs end with the three layers of those arguments. -/
theorem algebraic : Cert.algebraic_KernelIdeal_ReferenceIdeal := by
  intro m ρ m' ρ' _ hagree
  refine ⟨fun c => Cert.Gcn.gcn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.Gcn.kernel_value m ρ c), (h c).2⟩) (Cert.Gcn.kernel_run m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v70_eq, Cert.Gcn.ref_gcn, (hagree c).1, (hagree c).2.1,
      (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
